-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : FVec F S50000x3 .f32) (main_arg2 : IVec S2x800000 32) (main_arg3 : FVec F S129x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S128x64 .f32) (main_arg12 : FVec F S64 .f32) (main_arg13 : FVec F S64x64 .f32) (main_arg14 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x64 .f32 := Host.absf main_arg3
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x129 : Shape := ⟨2, ![800000, 129]⟩
abbrev S1x64 : Shape := ⟨2, ![1, 64]⟩
abbrev S1x1 : Shape := ⟨2, ![1, 1]⟩
abbrev S8000x129 : Shape := ⟨2, ![8000, 129]⟩
abbrev S8000x3 : Shape := ⟨2, ![8000, 3]⟩
abbrev S8000x64 : Shape := ⟨2, ![8000, 64]⟩
abbrev S8000x1 : Shape := ⟨2, ![8000, 1]⟩
abbrev S50000x128 : Shape := ⟨2, ![50000, 128]⟩
abbrev S2000x128 : Shape := ⟨2, ![2000, 128]⟩
abbrev S2000x64 : Shape := ⟨2, ![2000, 64]⟩

abbrev nBuf : Space → Nat
  | .hbm => 80
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S800000x3, .f32⟩
  | .hbm, ⟨57, _⟩ => ⟨S_, .f32⟩
  | .hbm, ⟨58, _⟩ => ⟨S800000, .f32⟩
  | .hbm, ⟨59, _⟩ => ⟨S800000x1, .f32⟩
  | .hbm, ⟨60, _⟩ => ⟨S800000x129, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x1, .f32⟩
  | .hbm, ⟨65, _⟩ => ⟨S800000x64, .f32⟩
  | .hbm, ⟨66, _⟩ => ⟨S800000x3, .f32⟩
  | .hbm, ⟨67, _⟩ => ⟨S_, .f32⟩
  | .hbm, ⟨68, _⟩ => ⟨S50000x3, .f32⟩
  | .hbm, ⟨69, _⟩ => ⟨S800000x1, .i32⟩
  | .hbm, ⟨70, _⟩ => ⟨S50000x3, .f32⟩
  | .hbm, ⟨71, _⟩ => ⟨S50000x3, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x128, .f32⟩
  | .hbm, ⟨77, _⟩ => ⟨S1x64, .f32⟩
  | .hbm, ⟨78, _⟩ => ⟨S1x64, .f32⟩
  | .hbm, ⟨79, _⟩ => ⟨S50000x64, .f32⟩
  | .local _ .vmem, ⟨0, _⟩ => ⟨S8000x129, .f32⟩
  | .local _ .vmem, ⟨1, _⟩ => ⟨S8000x129, .f32⟩
  | .local _ .vmem, ⟨2, _⟩ => ⟨S8000x3, .f32⟩
  | .local _ .vmem, ⟨3, _⟩ => ⟨S8000x3, .f32⟩
  | .local _ .vmem, ⟨4, _⟩ => ⟨S129x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S8000x64, .f32⟩
  | .local _ .vmem, ⟨13, _⟩ => ⟨S8000x64, .f32⟩
  | .local _ .vmem, ⟨14, _⟩ => ⟨S8000x3, .f32⟩
  | .local _ .vmem, ⟨15, _⟩ => ⟨S8000x3, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  shapeCasts_S64_S1x64 : S64.ShapeCasts S1x64
  shapeCasts_S1_S1x1 : S1.ShapeCasts S1x1
  inb_S8000x129_S8000x129_0_0 : ∀ a, (![0, 0] : Fin 2 → Nat) a + S8000x129.size a ≤ S8000x129.size a
  h_S8000x129 : 0 < S8000x129.numel
  shapeCasts_S8000x129_S8000x129 : S8000x129.ShapeCasts S8000x129
  bitsLt_bf16_f32 : FTy.bits .bf16 < FTy.bits .f32
  inb_S129x64_S129x64_0_0 : ∀ a, (![0, 0] : Fin 2 → Nat) a + S129x64.size a ≤ S129x64.size a
  h_S129x64 : 0 < S129x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  broadcasts_S8000x1_S8000x3 : S8000x1.Broadcasts S8000x3
  inb_S8000x64_S8000x64_0_0 : ∀ a, (![0, 0] : Fin 2 → Nat) a + S8000x64.size a ≤ S8000x64.size a
  h_S8000x64 : 0 < S8000x64.numel
  bcast_S_S50000x3 : S_.BroadcastsInDim S50000x3 (![] : Fin 0 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S8000x129_S129x64_S8000x64_1_0_0_1_n_n_wf : DotDims.WF S8000x129 S129x64 S8000x64 [1] [0] [0] [1] [] []
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x129.size a ≤ S800000x129.size a
  hwx0_0 : ∀ i : grid0.Coords, EltTy.bits .f32 = 32 ∨ (Rect.block (s := S800000x129) S8000x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S800000x3.size a
  hwx0_1 : ∀ i : grid0.Coords, EltTy.bits .f32 = 32 ∨ (Rect.block (s := S800000x3) S8000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x64.size a ≤ S129x64.size a
  hwx0_2 : ∀ i : grid0.Coords, EltTy.bits .f32 = 32 ∨ (Rect.block (s := S129x64) S129x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x64.size a ≤ S800000x64.size a
  hwx0_10 : ∀ i : grid0.Coords, EltTy.bits .f32 = 32 ∨ (Rect.block (s := S800000x64) S8000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x3.size a ≤ S800000x3.size a
  hwx0_11 : ∀ i : grid0.Coords, EltTy.bits .f32 = 32 ∨ (Rect.block (s := S800000x3) S8000x3.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S8000x129_S129x64_S8000x64_1_0_0_1_n_n : DotDims S8000x129 S129x64 S8000x64 where
  lhsContracting := [1]
  rhsContracting := [0]
  lhsNonContracting := [0]
  rhsNonContracting := [1]
  lhsBatch := []
  rhsBatch := []
  wf := dot_S8000x129_S129x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v36) S8000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S129x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41_0) S8000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v41_1) S8000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S1x64 : Shape := ⟨2, ![1, 64]⟩
abbrev S1x1 : Shape := ⟨2, ![1, 1]⟩
abbrev S50000x128 : Shape := ⟨2, ![50000, 128]⟩

abbrev nBuf : Space → Nat
  | .hbm => 133
  | .vmem => 0
  | .smem => 0
  | _ => 0

abbrev hbmTy0_0 (i : Nat) : BufTy := match i % 128 with
  | 0 => ⟨S50000x64, .f32⟩
  | 1 => ⟨S50000x3, .f32⟩
  | 2 => ⟨S2x800000, .i32⟩
  | 3 => ⟨S129x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S128x64, .f32⟩
  | 12 => ⟨S64, .f32⟩
  | 13 => ⟨S64x64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x129, .f32⟩
  | 61 => ⟨S800000x64, .f32⟩
  | 62 => ⟨S1x64, .f32⟩
  | 63 => ⟨S800000x64, .f32⟩
  | 64 => ⟨S800000x64, .f32⟩
  | 65 => ⟨S800000x64, .f32⟩
  | 66 => ⟨S800000x64, .f32⟩
  | 67 => ⟨S_, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S800000x64, .f32⟩
  | 74 => ⟨S800000x64, .f32⟩
  | 75 => ⟨S1x64, .f32⟩
  | 76 => ⟨S800000x64, .f32⟩
  | 77 => ⟨S800000x64, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S_, .f32⟩
  | 84 => ⟨S800000x64, .f32⟩
  | 85 => ⟨S800000x64, .f32⟩
  | 86 => ⟨S800000x64, .f32⟩
  | 87 => ⟨S800000x64, .f32⟩
  | 88 => ⟨S1x64, .f32⟩
  | 89 => ⟨S800000x64, .f32⟩
  | 90 => ⟨S800000x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .f32⟩
  | 97 => ⟨S800000x64, .f32⟩
  | 98 => ⟨S800000x64, .f32⟩
  | 99 => ⟨S800000x64, .f32⟩
  | 100 => ⟨S800000x1, .f32⟩
  | 101 => ⟨S1x1, .f32⟩
  | 102 => ⟨S800000x1, .f32⟩
  | 103 => ⟨S800000x1, .f32⟩
  | 104 => ⟨S800000x3, .f32⟩
  | 105 => ⟨S800000x3, .f32⟩
  | 106 => ⟨S_, .f32⟩
  | 107 => ⟨S50000x3, .f32⟩
  | 108 => ⟨S800000x1, .i32⟩
  | 109 => ⟨S50000x3, .f32⟩
  | 110 => ⟨S50000x3, .f32⟩
  | 111 => ⟨S_, .f32⟩
  | 112 => ⟨S50000x64, .f32⟩
  | 113 => ⟨S800000x1, .i32⟩
  | 114 => ⟨S50000x64, .f32⟩
  | 115 => ⟨S50000x128, .f32⟩
  | 116 => ⟨S50000x64, .f32⟩
  | 117 => ⟨S1x64, .f32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_7 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_8 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Layer.lean ====
/-
  One message-passing layer run as two row-tiled kernels.

  The first kernel walks the E = 800000 edges in 100 tiles of 8000 rows: from a tile of the edge features
  (129 columns), the tile of relative positions (3 columns) and the eight weight and bias arrays (each read whole at
  every tile) it leaves the tile of edge messages  silu(silu(x·We1 + be1)·We2 + be2)  and the tile of coordinate
  contributions  rel · (silu(msg·Wc1 + bc1)·Wc2 + bc2).  The second walks the N = 50000 nodes in 25 tiles of 2000
  rows and leaves  silu(z·Wn1 + bn1)·Wn2 + bn2  of the tile of node inputs z (128 columns).

  This module names, for either kernel and any number format, the block of each operand a tile sees, what the
  tile's body leaves in each output buffer as a function of those blocks, and the contents of every buffer of the
  program at the four boundaries between its host stretches and its two kernels.
-/
import proofs.«179086_j12515534701202_1_alg».proof.Proof.LaunchIdeal
import proofs.«179086_j12515534701202_1_alg».proof.Proof.Gen.KernelIdeal.Skeleton
import proofs.«179086_j12515534701202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Whole-buffer rectangles: every load and store of either body is of a whole staging buffer -/

abbrev rX : Rect S8000x129 := Rect.unit (s := S8000x129) ![0, 0] S8000x129.size inb_S8000x129_S8000x129_0_0
abbrev rRel : Rect S8000x3 := Rect.unit (s := S8000x3) ![0, 0] S8000x3.size inb_S8000x3_S8000x3_0_0
abbrev rW1 : Rect S129x64 := Rect.unit (s := S129x64) ![0, 0] S129x64.size inb_S129x64_S129x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0
abbrev rWc : Rect S64x1 := Rect.unit (s := S64x1) ![0, 0] S64x1.size inb_S64x1_S64x1_0_0
abbrev rB1 : Rect S1x1 := Rect.unit (s := S1x1) ![0, 0] S1x1.size inb_S1x1_S1x1_0_0
abbrev rMsg : Rect S8000x64 := Rect.unit (s := S8000x64) ![0, 0] S8000x64.size inb_S8000x64_S8000x64_0_0
abbrev rZ : Rect S2000x128 := Rect.unit (s := S2000x128) ![0, 0] S2000x128.size inb_S2000x128_S2000x128_0_0
abbrev rWn : Rect S128x64 := Rect.unit (s := S128x64) ![0, 0] S128x64.size inb_S128x64_S128x64_0_0
abbrev rOut : Rect S2000x64 := Rect.unit (s := S2000x64) ![0, 0] S2000x64.size inb_S2000x64_S2000x64_0_0

theorem zero2 : (![0, 0] : Fin 2 → ℕ) = fun _ => 0 := by
  funext a; match a with | ⟨0, _⟩ => rfl | ⟨1, _⟩ => rfl

/-! ## What a tile's body leaves in each output buffer -/

/-- The tile of edge messages, from the tile of edge features and the first two layers' weights and biases. -/
def msgTile (x0 : Vec F S8000x129 .f32) (x2 : Vec F S129x64 .f32) (x3 : Vec F S1x64 .f32) (x4 : Vec F S64x64 .f32)
    (x5 : Vec F S1x64 .f32) : Vec F S8000x64 .f32 :=
  View.canon [⟨rMsg, k0_pay2 (View.ld x0 rX) (View.ld x2 rW1) (View.ld x3 rB) (View.ld x4 rW) (View.ld x5 rB)⟩]

/-- The tile of coordinate contributions: the tile of relative positions scaled row by row by the coordinate
    weight, which is two more layers on top of the tile of edge messages. -/
def coordTile (x0 : Vec F S8000x129 .f32) (x1 : Vec F S8000x3 .f32) (x2 : Vec F S129x64 .f32) (x3 : Vec F S1x64 .f32)
    (x4 : Vec F S64x64 .f32) (x5 : Vec F S1x64 .f32) (x6 : Vec F S64x64 .f32) (x7 : Vec F S1x64 .f32)
    (x8 : Vec F S64x1 .f32) (x9 : Vec F S1x1 .f32) : Vec F S8000x3 .f32 :=
  View.canon [⟨rRel, k0_pay1 (k0_pay3 (View.ld x0 rX) (View.ld x2 rW1) (View.ld x3 rB) (View.ld x4 rW) (View.ld x5 rB)
    (View.ld x6 rW) (View.ld x7 rB) (View.ld x8 rWc)) (View.ld x9 rB1) (View.ld x1 rRel)⟩]

/-- The tile of node outputs, from the tile of node inputs and the node layers' weights and biases. -/
def nodeTile (x0 : Vec F S2000x128 .f32) (x1 : Vec F S128x64 .f32) (x2 : Vec F S1x64 .f32) (x3 : Vec F S64x64 .f32)
    (x4 : Vec F S1x64 .f32) : Vec F S2000x64 .f32 :=
  View.canon [⟨rOut, k1_pay1 (View.ld x0 rZ) (View.ld x1 rWn) (View.ld x2 rB) (View.ld x3 rW) (View.ld x4 rB)⟩]

/-- A whole-buffer load reads the buffer and one whole-buffer store leaves its value: the tile of edge messages
    is the body's arithmetic on the blocks themselves. -/
theorem msgTile_eq (x0 : Vec F S8000x129 .f32) (x2 : Vec F S129x64 .f32) (x3 : Vec F S1x64 .f32)
    (x4 : Vec F S64x64 .f32) (x5 : Vec F S1x64 .f32) : msgTile x0 x2 x3 x4 x5 = k0_pay2 x0 x2 x3 x4 x5 := by
  unfold msgTile
  rw [View.canon_unit_zero zero2]
  simp only [View.ld_unit_zero (S := S8000x129) zero2, View.ld_unit_zero (S := S129x64) zero2,
    View.ld_unit_zero (S := S1x64) zero2, View.ld_unit_zero (S := S64x64) zero2]

theorem coordTile_eq (x0 : Vec F S8000x129 .f32) (x1 : Vec F S8000x3 .f32) (x2 : Vec F S129x64 .f32)
    (x3 : Vec F S1x64 .f32) (x4 : Vec F S64x64 .f32) (x5 : Vec F S1x64 .f32) (x6 : Vec F S64x64 .f32)
    (x7 : Vec F S1x64 .f32) (x8 : Vec F S64x1 .f32) (x9 : Vec F S1x1 .f32) :
    coordTile x0 x1 x2 x3 x4 x5 x6 x7 x8 x9 = k0_pay1 (k0_pay3 x0 x2 x3 x4 x5 x6 x7 x8) x9 x1 := by
  unfold coordTile
  rw [View.canon_unit_zero zero2]
  simp only [View.ld_unit_zero (S := S8000x129) zero2, View.ld_unit_zero (S := S129x64) zero2,
    View.ld_unit_zero (S := S1x64) zero2, View.ld_unit_zero (S := S64x64) zero2,
    View.ld_unit_zero (S := S64x1) zero2, View.ld_unit_zero (S := S1x1) zero2, View.ld_unit_zero (S := S8000x3) zero2]

theorem nodeTile_eq (x0 : Vec F S2000x128 .f32) (x1 : Vec F S128x64 .f32) (x2 : Vec F S1x64 .f32)
    (x3 : Vec F S64x64 .f32) (x4 : Vec F S1x64 .f32) : nodeTile x0 x1 x2 x3 x4 = k1_pay1 x0 x1 x2 x3 x4 := by
  unfold nodeTile
  rw [View.canon_unit_zero zero2]
  simp only [View.ld_unit_zero (S := S2000x128) zero2, View.ld_unit_zero (S := S128x64) zero2,
    View.ld_unit_zero (S := S1x64) zero2, View.ld_unit_zero (S := S64x64) zero2]

section Regions

-- the contents of core `c`'s buffers when a kernel is entered
variable (V : (c : Dev nD) → (b : Ref sig .tc) → Buf (Elt F) ((c : Thread nD τ).loc b))

/-! ## The edge kernel -/

/-- Operand `w`'s block at tile `t`, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge kernel's bookkeeping on core `c`: its arrays as found; after tile `t` every input buffer still at
    its block and the two output buffers at the tile of edge messages and the tile of coordinate contributions. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => msgTile (blk0 V c 0 t) (blk0 V c 2 t) (blk0 V c 3 t) (blk0 V c 4 t) (blk0 V c 5 t)
    | ⟨11, _⟩ => coordTile (blk0 V c 0 t) (blk0 V c 1 t) (blk0 V c 2 t) (blk0 V c 3 t) (blk0 V c 4 t) (blk0 V c 5 t)
        (blk0 V c 6 t) (blk0 V c 7 t) (blk0 V c 8 t) (blk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = blk0 V c 9 t := by dsimp only [dat0]
theorem after0_10 (c : Dev nD) (t : Fin cfg0.N) : (dat0 V c).after 10 t
    = msgTile (blk0 V c 0 t) (blk0 V c 2 t) (blk0 V c 3 t) (blk0 V c 4 t) (blk0 V c 5 t) := by dsimp only [dat0]
theorem after0_11 (c : Dev nD) (t : Fin cfg0.N) : (dat0 V c).after 11 t
    = coordTile (blk0 V c 0 t) (blk0 V c 1 t) (blk0 V c 2 t) (blk0 V c 3 t) (blk0 V c 4 t) (blk0 V c 5 t)
        (blk0 V c 6 t) (blk0 V c 7 t) (blk0 V c 8 t) (blk0 V c 9 t) := by dsimp only [dat0]

/-! ## The node kernel -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node kernel's bookkeeping on core `c`: its arrays as found; after tile `t` every input buffer still at
    its block and the output buffer at the tile of node outputs. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => nodeTile (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t
    = nodeTile (blk1 V c 0 t) (blk1 V c 1 t) (blk1 V c 2 t) (blk1 V c 3 t) (blk1 V c 4 t) := by dsimp only [dat1]

end Regions

/-! ## The buffers' contents at each boundary of the program: a fold from the launch memory -/

variable (m : (ℓ : Loc nD τ sig) → Buf (Elt F) ℓ)

/-- Core `c`'s buffers at launch. -/
abbrev W0 : Dev nD → Valuation τ sig (Elt F) := fun c b => m (c, b)
/-- After the first host stretch (gathers, squared distance, concatenation, bias reshapes): the edge kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the edge kernel's exit: its two result arrays at what its tiles wrote back, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the two scatter-adds, the position update, the node inputs): the node kernel's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the node kernel's exit: its result array at what its tiles wrote back, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.KernelIdeal.Layer

end
-- ==== Proof.EdgeBody.lean ====
/-
  The edge kernel's body at one tile.

  A tile of the edge kernel sees a tile of 8000 rows of the edge features (129 columns) and of the relative positions
  (3 columns), and the whole of the eight weight and bias arrays. Its body reads the ten staging buffers whole; from
  the features and the first two layers it forms the tile of edge messages, from the messages and two more layers a
  weight per edge, and from that weight and the relative positions the tile of coordinate contributions; it writes
  each of the two results over the whole of its staging buffer (each of which it also reads once first, to no effect).

  This module shows: every input's staging buffer holds that input's block at every tile, whether or not the pipeline
  fetched it there (the weights and biases are fetched at the first tile only and stay put); the body, run on whole
  staging buffers, gives the inputs back as found and leaves the two tiles in the output buffers; and from the two
  the pipeline's obligation on the body at every tile.
-/
import proofs.«179086_j12515534701202_1_alg».proof.Proof.Layer

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every tile

An input window is never cut and never idle; where it is not fetched its block index has not moved since the tile
before, and the body left the buffer as it found it. -/

theorem holds0_0 (c : Dev nD) (t : Fin cfg0.N) (d) : (dat0 V c).before 0 t d = blk0 V c 0 t :=
  ((dat0 V c).before_in_eq_fetched 0 rfl (fun _ => rfl) (fun _ _ _ => rfl)
      (fun t => by rw [after0_0 V c t]; unfold Dat.blockOf blk0; rw [A_eq0]; try rfl) t d).trans
    (by unfold Dat.fetched Dat.blockOf blk0; rw [A_eq0]; try rfl)
theorem holds0_1 (c : Dev nD) (t : Fin cfg0.N) (d) : (dat0 V c).before 1 t d = blk0 V c 1 t :=
  ((dat0 V c).before_in_eq_fetched 1 rfl (fun _ => rfl) (fun _ _ _ => rfl)
      (fun t => by rw [after0_1 V c t]; unfold Dat.blockOf blk0; rw [A_eq0]; try rfl) t d).trans
    (by unfold Dat.fetched Dat.blockOf blk0; rw [A_eq0]; try rfl)
theorem holds0_2 (c : Dev nD) (t : Fin cfg0.N) (d) : (dat0 V c).before 2 t d = blk0 V c 2 t :=
  ((dat0 V c).before_in_eq_fetched 2 rfl (fun _ => rfl) (fun _ _ _ => rfl)
      (fun t => by rw [after0_2 V c t]; unfold Dat.blockOf blk0; rw [A_eq0]; try rfl) t d).trans
    (by unfold Dat.fetched Dat.blockOf blk0; rw [A_eq0]; try rfl)
theorem holds0_3 (c : Dev nD) (t : Fin cfg0.N) (d) : (dat0 V c).before 3 t d = blk0 V c 3 t :=
  ((dat0 V c).before_in_eq_fetched 3 rfl (fun _ => rfl) (fun _ _ _ => rfl)
      (fun t => by rw [after0_3 V c t]; unfold Dat.blockOf blk0; rw [A_eq0]; try rfl) t d).trans
    (by unfold Dat.fetched Dat.blockOf blk0; rw [A_eq0]; try rfl)
theorem holds0_4 (c : Dev nD) (t : Fin cfg0.N) (d) : (dat0 V c).before 4 t d = blk0 V c 4 t :=
  ((dat0 V c).before_in_eq_fetched 4 rfl (fun _ => rfl) (fun _ _ _ => rfl)
      (fun t => by rw [after0_4 V c t]; unfold Dat.blockOf blk0; rw [A_eq0]; try rfl) t d).trans
    (by unfold Dat.fetched Dat.blockOf blk0; rw [A_eq0]; try rfl)
theorem holds0_5 (c : Dev nD) (t : Fin cfg0.N) (d) : (dat0 V c).before 5 t d = blk0 V c 5 t :=
  ((dat0 V c).before_in_eq_fetched 5 rfl (fun _ => rfl) (fun _ _ _ => rfl)
      (fun t => by rw [after0_5 V c t]; unfold Dat.blockOf blk0; rw [A_eq0]; try rfl) t d).trans
    (by unfold Dat.fetched Dat.blockOf blk0; rw [A_eq0]; try rfl)
theorem holds0_6 (c : Dev nD) (t : Fin cfg0.N) (d) : (dat0 V c).before 6 t d = blk0 V c 6 t :=
  ((dat0 V c).before_in_eq_fetched 6 rfl (fun _ => rfl) (fun _ _ _ => rfl)
      (fun t => by rw [after0_6 V c t]; unfold Dat.blockOf blk0; rw [A_eq0]; try rfl) t d).trans
    (by unfold Dat.fetched Dat.blockOf blk0; rw [A_eq0]; try rfl)
theorem holds0_7 (c : Dev nD) (t : Fin cfg0.N) (d) : (dat0 V c).before 7 t d = blk0 V c 7 t :=
  ((dat0 V c).before_in_eq_fetched 7 rfl (fun _ => rfl) (fun _ _ _ => rfl)
      (fun t => by rw [after0_7 V c t]; unfold Dat.blockOf blk0; rw [A_eq0]; try rfl) t d).trans
    (by unfold Dat.fetched Dat.blockOf blk0; rw [A_eq0]; try rfl)
theorem holds0_8 (c : Dev nD) (t : Fin cfg0.N) (d) : (dat0 V c).before 8 t d = blk0 V c 8 t :=
  ((dat0 V c).before_in_eq_fetched 8 rfl (fun _ => rfl) (fun _ _ _ => rfl)
      (fun t => by rw [after0_8 V c t]; unfold Dat.blockOf blk0; rw [A_eq0]; try rfl) t d).trans
    (by unfold Dat.fetched Dat.blockOf blk0; rw [A_eq0]; try rfl)
theorem holds0_9 (c : Dev nD) (t : Fin cfg0.N) (d) : (dat0 V c).before 9 t d = blk0 V c 9 t :=
  ((dat0 V c).before_in_eq_fetched 9 rfl (fun _ => rfl) (fun _ _ _ => rfl)
      (fun t => by rw [after0_9 V c t]; unfold Dat.blockOf blk0; rw [A_eq0]; try rfl) t d).trans
    (by unfold Dat.fetched Dat.blockOf blk0; rw [A_eq0]; try rfl)

/-! ## The body on whole staging buffers -/

/-- One store of the whole buffer covers it: the buffer of edge messages, -/
theorem msgCover (p : Vec F S8000x64 .f32) (y : S8000x64.Idx) :
    ∃ pc ∈ ([⟨rMsg, p⟩] : List (View.Piece (Elt F) S8000x64 .f32)), y ∈ pc.1.set :=
  View.cover_of_tiled [⟨rMsg, p⟩] S8000x64.size (by rfl) y

/-- and the buffer of coordinate contributions. -/
theorem coordCover (p : Vec F S8000x3 .f32) (y : S8000x3.Idx) :
    ∃ pc ∈ ([⟨rRel, p⟩] : List (View.Piece (Elt F) S8000x3 .f32)), y ∈ pc.1.set :=
  View.cover_of_tiled [⟨rRel, p⟩] S8000x3.size (by rfl) y

set_option maxHeartbeats 4000000 in
/-- The body, with the ten inputs' buffers read as `x0 … x9` and the two outputs' buffers at anything, runs to any
    continuation that accepts the inputs' buffers unchanged, the first output's at the tile of edge messages and the
    second's at the tile of coordinate contributions. -/
theorem edge_triple (c : Dev nD) (E : Set ℕ) (i : grid0.Coords)
    (a0 : Memref sig .tc .vmem S8000x129 .f32) (h0 : a0.IsWhole)
    (a1 : Memref sig .tc .vmem S8000x3 .f32) (h1 : a1.IsWhole)
    (a2 : Memref sig .tc .vmem S129x64 .f32) (h2 : a2.IsWhole)
    (a3 : Memref sig .tc .vmem S1x64 .f32) (h3 : a3.IsWhole)
    (a4 : Memref sig .tc .vmem S64x64 .f32) (h4 : a4.IsWhole)
    (a5 : Memref sig .tc .vmem S1x64 .f32) (h5 : a5.IsWhole)
    (a6 : Memref sig .tc .vmem S64x64 .f32) (h6 : a6.IsWhole)
    (a7 : Memref sig .tc .vmem S1x64 .f32) (h7 : a7.IsWhole)
    (a8 : Memref sig .tc .vmem S64x1 .f32) (h8 : a8.IsWhole)
    (a9 : Memref sig .tc .vmem S1x1 .f32) (h9 : a9.IsWhole)
    (a10 : Memref sig .tc .vmem S8000x64 .f32) (h10 : a10.IsWhole)
    (a11 : Memref sig .tc .vmem S8000x3 .f32) (h11 : a11.IsWhole)
    (x0 : Vec F S8000x129 .f32)
    (x1 : Vec F S8000x3 .f32)
    (x2 : Vec F S129x64 .f32)
    (x3 : Vec F S1x64 .f32)
    (x4 : Vec F S64x64 .f32)
    (x5 : Vec F S1x64 .f32)
    (x6 : Vec F S64x64 .f32)
    (x7 : Vec F S1x64 .f32)
    (x8 : Vec F S64x1 .f32)
    (x9 : Vec F S1x1 .f32)
    (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ (∃ d, owns (c : Thread nD τ) a10 fullShare d) ∗ (∃ d, owns (c : Thread nD τ) a11 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare (msgTile x0 x2 x3 x4 x5)
            ∗ owns (c : Thread nD τ) a11 fullShare (coordTile x0 x1 x2 x3 x4 x5 x6 x7 x8 x9)) -∗ K ⟨⟩))
      ⊢ wp frame (wpE (defs₀ (F := F)) Variants.none c none) E
          (cc0__edge_kernel i a0 h0 a1 h1 a2 h2 a3 h3 a4 h4 a5 h5 a6 h6 a7 h7 a8 h8 a9 h9 a10 h10 a11 h11) K := by
  simp only [cc0__edge_kernel_eq_skeleton]; unfold cc0__edge_kernel_skel
  simp only [k0_part1_eq_skeleton]; unfold k0_part1_skel
  unfold owns msgTile coordTile
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, Hk⟩
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (msgCover _)
  iexists _; isplitr
  swap; · iexact H11
  ipureintro
  exact View.read_writes_eq_canon _ _ _ (coordCover _)

/-! ## The pipeline's obligation on the body -/

/-- What the body is entered with at tile `t`: the invariant, what the core owes, and each window's current
    staging buffer at what it then holds. -/
def edgePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it leaves: the same at the next tile, each buffer at what the body leaves in it. -/
def edgePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any tile: the inputs' buffers hold their blocks, so the triple applies; the invariant and what the
    core owes are neither read nor changed. -/
theorem edge_step (c : Dev nD) (t : Fin cfg0.N) :
    edgePre V c t ⊢ wp frame (wpE (defs₀ (F := F)) Variants.none c none) Set.univ (bodyAt0 t) (fun _ => edgePost V c t) := by
  unfold edgePre edgePost bodyAt0
  simp only [holds0_0, holds0_1, holds0_2, holds0_3, holds0_4, holds0_5, holds0_6, holds0_7, holds0_8, holds0_9]
  rw [show (dat0 V c).Φ t.succ = (dat0 V c).Φ t.castSucc from rfl,
    show (dat0 V c).owesAt () t.succ = (dat0 V c).owesAt () t.castSucc from rfl,
    after0_0 V c t, after0_1 V c t, after0_2 V c t, after0_3 V c t, after0_4 V c t, after0_5 V c t, after0_6 V c t, after0_7 V c t, after0_8 V c t, after0_9 V c t,
    after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (edge_triple c Set.univ _ _ _ _ _ _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t) (blk0 V c 8 t) (blk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's obligation on the edge kernel's body, at every tile. -/
theorem body_obligation0 (c : Dev nD) : BodyObligation (dat0 (F := F) V c) (defs₀ (F := F)) Variants.none () Set.univ := fun t => by
  rw [bigSep_W0, bigSep_W0]
  exact edge_step V c t

end

end Cert.KernelIdeal.Layer

end
-- ==== Proof.NodeBody.lean ====
/-
  The node kernel's body at one tile.

  A tile of the node kernel sees a tile of 2000 rows of the node inputs and the whole of the two weight arrays and the
  two bias rows. Its body reads each of the five staging buffers whole, computes  silu(z·Wn1 + bn1)·Wn2 + bn2  and
  writes the result over the whole of the output's staging buffer (which it also reads once first, to no effect).

  This module shows: every input's staging buffer holds that input's block at every tile, whether or not the pipeline
  fetched it there (a weight array is fetched at the first tile only and stays put); the body, run on whole staging
  buffers, gives the inputs back as found and leaves the tile of node outputs in the output buffer; and from the two
  the pipeline's obligation on the body at every tile.
-/
import proofs.«179086_j12515534701202_1_alg».proof.Proof.Layer

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every tile

An input window is never cut and never idle; where it is not fetched its block index has not moved since the tile
before, and the body left the buffer as it found it. -/

theorem holds1_0 (c : Dev nD) (t : Fin cfg1.N) (d) : (dat1 V c).before 0 t d = blk1 V c 0 t :=
  ((dat1 V c).before_in_eq_fetched 0 rfl (fun _ => rfl) (fun _ _ _ => rfl)
      (fun t => by rw [after1_0 V c t]; unfold Dat.blockOf blk1; rw [A_eq1]; try rfl) t d).trans
    (by unfold Dat.fetched Dat.blockOf blk1; rw [A_eq1]; try rfl)
theorem holds1_1 (c : Dev nD) (t : Fin cfg1.N) (d) : (dat1 V c).before 1 t d = blk1 V c 1 t :=
  ((dat1 V c).before_in_eq_fetched 1 rfl (fun _ => rfl) (fun _ _ _ => rfl)
      (fun t => by rw [after1_1 V c t]; unfold Dat.blockOf blk1; rw [A_eq1]; try rfl) t d).trans
    (by unfold Dat.fetched Dat.blockOf blk1; rw [A_eq1]; try rfl)
theorem holds1_2 (c : Dev nD) (t : Fin cfg1.N) (d) : (dat1 V c).before 2 t d = blk1 V c 2 t :=
  ((dat1 V c).before_in_eq_fetched 2 rfl (fun _ => rfl) (fun _ _ _ => rfl)
      (fun t => by rw [after1_2 V c t]; unfold Dat.blockOf blk1; rw [A_eq1]; try rfl) t d).trans
    (by unfold Dat.fetched Dat.blockOf blk1; rw [A_eq1]; try rfl)
theorem holds1_3 (c : Dev nD) (t : Fin cfg1.N) (d) : (dat1 V c).before 3 t d = blk1 V c 3 t :=
  ((dat1 V c).before_in_eq_fetched 3 rfl (fun _ => rfl) (fun _ _ _ => rfl)
      (fun t => by rw [after1_3 V c t]; unfold Dat.blockOf blk1; rw [A_eq1]; try rfl) t d).trans
    (by unfold Dat.fetched Dat.blockOf blk1; rw [A_eq1]; try rfl)
theorem holds1_4 (c : Dev nD) (t : Fin cfg1.N) (d) : (dat1 V c).before 4 t d = blk1 V c 4 t :=
  ((dat1 V c).before_in_eq_fetched 4 rfl (fun _ => rfl) (fun _ _ _ => rfl)
      (fun t => by rw [after1_4 V c t]; unfold Dat.blockOf blk1; rw [A_eq1]; try rfl) t d).trans
    (by unfold Dat.fetched Dat.blockOf blk1; rw [A_eq1]; try rfl)

/-! ## The body on whole staging buffers -/

/-- One store of the whole buffer covers it. -/
theorem nodeCover (p : Vec F S2000x64 .f32) (y : S2000x64.Idx) :
    ∃ pc ∈ ([⟨rOut, p⟩] : List (View.Piece (Elt F) S2000x64 .f32)), y ∈ pc.1.set :=
  View.cover_of_tiled [⟨rOut, p⟩] S2000x64.size (by rfl) y

set_option maxHeartbeats 1000000 in
/-- The body, with the five inputs' buffers read as `x0 … x4` and the output's buffer at anything, runs to any
    continuation that accepts the inputs' buffers unchanged and the output's at the tile of node outputs. -/
theorem node_triple (c : Dev nD) (E : Set ℕ) (i : grid1.Coords)
    (a0 : Memref sig .tc .vmem S2000x128 .f32) (h0 : a0.IsWhole) (a1 : Memref sig .tc .vmem S128x64 .f32) (h1 : a1.IsWhole)
    (a2 : Memref sig .tc .vmem S1x64 .f32) (h2 : a2.IsWhole) (a3 : Memref sig .tc .vmem S64x64 .f32) (h3 : a3.IsWhole)
    (a4 : Memref sig .tc .vmem S1x64 .f32) (h4 : a4.IsWhole) (a5 : Memref sig .tc .vmem S2000x64 .f32) (h5 : a5.IsWhole)
    (x0 : Vec F S2000x128 .f32) (x1 : Vec F S128x64 .f32) (x2 : Vec F S1x64 .f32) (x3 : Vec F S64x64 .f32)
    (x4 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (nodeTile x0 x1 x2 x3 x4)) -∗ K ⟨⟩))
      ⊢ wp frame (wpE (defs₀ (F := F)) Variants.none c none) E (cc1__node_kernel i a0 h0 a1 h1 a2 h2 a3 h3 a4 h4 a5 h5) K := by
  simp only [cc1__node_kernel_eq_skeleton]; unfold cc1__node_kernel_skel
  unfold owns nodeTile
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (nodeCover _)

/-! ## The pipeline's obligation on the body -/

/-- What the body is entered with at tile `t`: the invariant, what the core owes, and each window's current
    staging buffer at what it then holds. -/
def nodePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it leaves: the same at the next tile, each buffer at what the body leaves in it. -/
def nodePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' buffers hold their blocks, so the triple applies; the invariant and what the
    core owes are neither read nor changed. -/
theorem node_step (c : Dev nD) (t : Fin cfg1.N) :
    nodePre V c t ⊢ wp frame (wpE (defs₀ (F := F)) Variants.none c none) Set.univ (bodyAt1 t) (fun _ => nodePost V c t) := by
  unfold nodePre nodePost bodyAt1
  simp only [holds1_0, holds1_1, holds1_2, holds1_3, holds1_4]
  rw [show (dat1 V c).Φ t.succ = (dat1 V c).Φ t.castSucc from rfl,
    show (dat1 V c).owesAt () t.succ = (dat1 V c).owesAt () t.castSucc from rfl,
    after1_0 V c t, after1_1 V c t, after1_2 V c t,
    after1_3 V c t, after1_4 V c t, after1_5]
  iintro ⟨HΦ, Ho, ⟨%d0, H0⟩, ⟨%d1, H1⟩, ⟨%d2, H2⟩, ⟨%d3, H3⟩, ⟨%d4, H4⟩, ⟨%d5, H5⟩⟩
  iapply (node_triple c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the node kernel's body, at every tile. -/
theorem body_obligation1 (c : Dev nD) : BodyObligation (dat1 (F := F) V c) (defs₀ (F := F)) Variants.none () Set.univ := fun t => by
  rw [bigSep_W1, bigSep_W1]
  exact node_step V c t

end

end Cert.KernelIdeal.Layer

end
-- ==== Proof.Run.lean ====
/-
  The whole layer, from launch to return.

  The program is four stretches in a row: host operations that build the edge kernel's operands (the gathered
  endpoint features, the squared distance, their concatenation; the biases as rows), the edge kernel over its 100
  tiles, host operations that sum the messages and the coordinate contributions into the nodes and build the node
  kernel's operands, and the node kernel over its 25 tiles. Layer.lean names the contents of every buffer at the five
  boundaries, `W0 … W4`, as a fold from the launch memory.

  This module shows that every weakly fair execution of the program from any memory terminates without a fault in a
  state whose every unscoped buffer holds its `W4` contents, and that at each of the fifteen argument arrays those are
  the launch contents: no host operation writes an argument, and a kernel either never sees it or only reads it
  through an input window.
-/
import proofs.«179086_j12515534701202_1_alg».proof.Proof.EdgeBody
import proofs.«179086_j12515534701202_1_alg».proof.Proof.NodeBody

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the host stretches write -/

/-- No host operation before the edge kernel allocates a buffer, -/
theorem hostOps0_fresh : (hostOps0 : List (HloOp τ sig (Elt F))).Forall fun op => op.fresh = ∅ := by
  simp only [List.Forall]; repeat' constructor
/-- and none between the two kernels. -/
theorem hostOps1_fresh : (hostOps1 : List (HloOp τ sig (Elt F))).Forall fun op => op.fresh = ∅ := by
  simp only [List.Forall]; repeat' constructor

/-- The buffers the first stretch writes: each operation's result, in order. -/
abbrev wrote0 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_v32, main_v33, main_cst, main_v34, main_v35, main_v36, main_v37, main_v38, main_v39, main_v40]
/-- The buffers the second stretch writes. -/
abbrev wrote1 : List (Ref sig .tc) := [main_cst_7, main_v42, main_v43, main_v44, main_v45, main_cst_8, main_v46, main_v47, main_v48, main_v49, main_v50, main_v51]

theorem hostOps0_writes : (hostOps0 : List (HloOp τ sig (Elt F))).Forall fun op => op.writes ⊆ (wrote0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

theorem hostOps1_writes : (hostOps1 : List (HloOp τ sig (Elt F))).Forall fun op => op.writes ⊆ (wrote1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

variable (m : (ℓ : Loc nD τ sig) → Buf (Elt F) ℓ) (ρ : Dev nD → PrngReg)

/-! ## An argument array ends as launched -/

/-- A kernel leaves the array of an input window as it found it: the edge kernel, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- and the node kernel. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- A buffer neither host stretch writes and both kernels leave alone holds at the end what it held at launch. -/
theorem back_to_launch (c : Dev nD) (b : Ref sig .tc) (h3 : b ∉ wrote1) (h1 : b ∉ wrote0)
    (h4 : W4 m c (Proc.devRef .tc b) = W3 m c (Proc.devRef .tc b))
    (h2 : W2 m c (Proc.devRef .tc b) = W1 m c (Proc.devRef .tc b)) :
    W4 m c (Proc.devRef .tc b) = m ((c : Thread nD τ).loc b) :=
  h4.trans <| (StableHlo.after_of_writes_sub hostOps1 _ hostOps1_writes h3).trans <| h2.trans <|
    (StableHlo.after_of_writes_sub hostOps0 _ hostOps0_writes h1).trans rfl

theorem W4_main_arg0 (c : Dev nD) : W4 m c (Proc.devRef .tc main_arg0) = m ((c : Thread nD τ).loc main_arg0) :=
  back_to_launch m c main_arg0 (by decide) (by decide) (W4_of_ne m c main_arg0 (by decide)) (W2_of_ne m c main_arg0 (by decide))
theorem W4_main_arg1 (c : Dev nD) : W4 m c (Proc.devRef .tc main_arg1) = m ((c : Thread nD τ).loc main_arg1) :=
  back_to_launch m c main_arg1 (by decide) (by decide) (W4_of_ne m c main_arg1 (by decide)) (W2_of_ne m c main_arg1 (by decide))
theorem W4_main_arg2 (c : Dev nD) : W4 m c (Proc.devRef .tc main_arg2) = m ((c : Thread nD τ).loc main_arg2) :=
  back_to_launch m c main_arg2 (by decide) (by decide) (W4_of_ne m c main_arg2 (by decide)) (W2_of_ne m c main_arg2 (by decide))
theorem W4_main_arg3 (c : Dev nD) : W4 m c (Proc.devRef .tc main_arg3) = m ((c : Thread nD τ).loc main_arg3) :=
  back_to_launch m c main_arg3 (by decide) (by decide) (W4_of_ne m c main_arg3 (by decide)) (W2_in m c 2 rfl)
theorem W4_main_arg4 (c : Dev nD) : W4 m c (Proc.devRef .tc main_arg4) = m ((c : Thread nD τ).loc main_arg4) :=
  back_to_launch m c main_arg4 (by decide) (by decide) (W4_of_ne m c main_arg4 (by decide)) (W2_of_ne m c main_arg4 (by decide))
theorem W4_main_arg5 (c : Dev nD) : W4 m c (Proc.devRef .tc main_arg5) = m ((c : Thread nD τ).loc main_arg5) :=
  back_to_launch m c main_arg5 (by decide) (by decide) (W4_of_ne m c main_arg5 (by decide)) (W2_in m c 4 rfl)
theorem W4_main_arg6 (c : Dev nD) : W4 m c (Proc.devRef .tc main_arg6) = m ((c : Thread nD τ).loc main_arg6) :=
  back_to_launch m c main_arg6 (by decide) (by decide) (W4_of_ne m c main_arg6 (by decide)) (W2_of_ne m c main_arg6 (by decide))
theorem W4_main_arg7 (c : Dev nD) : W4 m c (Proc.devRef .tc main_arg7) = m ((c : Thread nD τ).loc main_arg7) :=
  back_to_launch m c main_arg7 (by decide) (by decide) (W4_of_ne m c main_arg7 (by decide)) (W2_in m c 6 rfl)
theorem W4_main_arg8 (c : Dev nD) : W4 m c (Proc.devRef .tc main_arg8) = m ((c : Thread nD τ).loc main_arg8) :=
  back_to_launch m c main_arg8 (by decide) (by decide) (W4_of_ne m c main_arg8 (by decide)) (W2_of_ne m c main_arg8 (by decide))
theorem W4_main_arg9 (c : Dev nD) : W4 m c (Proc.devRef .tc main_arg9) = m ((c : Thread nD τ).loc main_arg9) :=
  back_to_launch m c main_arg9 (by decide) (by decide) (W4_of_ne m c main_arg9 (by decide)) (W2_in m c 8 rfl)
theorem W4_main_arg10 (c : Dev nD) : W4 m c (Proc.devRef .tc main_arg10) = m ((c : Thread nD τ).loc main_arg10) :=
  back_to_launch m c main_arg10 (by decide) (by decide) (W4_of_ne m c main_arg10 (by decide)) (W2_of_ne m c main_arg10 (by decide))
theorem W4_main_arg11 (c : Dev nD) : W4 m c (Proc.devRef .tc main_arg11) = m ((c : Thread nD τ).loc main_arg11) :=
  back_to_launch m c main_arg11 (by decide) (by decide) (W4_in m c 1 rfl) (W2_of_ne m c main_arg11 (by decide))
theorem W4_main_arg12 (c : Dev nD) : W4 m c (Proc.devRef .tc main_arg12) = m ((c : Thread nD τ).loc main_arg12) :=
  back_to_launch m c main_arg12 (by decide) (by decide) (W4_of_ne m c main_arg12 (by decide)) (W2_of_ne m c main_arg12 (by decide))
theorem W4_main_arg13 (c : Dev nD) : W4 m c (Proc.devRef .tc main_arg13) = m ((c : Thread nD τ).loc main_arg13) :=
  back_to_launch m c main_arg13 (by decide) (by decide) (W4_in m c 3 rfl) (W2_of_ne m c main_arg13 (by decide))
theorem W4_main_arg14 (c : Dev nD) : W4 m c (Proc.devRef .tc main_arg14) = m ((c : Thread nD τ).loc main_arg14) :=
  back_to_launch m c main_arg14 (by decide) (by decide) (W4_of_ne m c main_arg14 (by decide)) (W2_of_ne m c main_arg14 (by decide))

/-! ## The kernels' bookkeeping, and what rides beside the buffers -/

/-- Neither kernel has a prefetched table. -/
abbrev adm : (p : Fin 2) → (pcfgs (F := F) p).Adm := fun p => (cfgs p).toPCfg_adm

/-- Each kernel's bookkeeping at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core ever owes another anything, so no level is assigned. -/
abbrev L : GSem nD τ sig → Finset Unit := fun _ => ∅
abbrev lv : GSem nD τ sig → Unit → ℕ := fun _ _ => 0

/-- What a core holds beside its buffers through the whole run: its generator register at some state, and the
    record that it owes nothing. -/
abbrev side (c : Dev nD) : sProp 𝕄 := iprop((∃ r, prngReg c r) ∗ ∃ W, owes (c : Thread nD τ) (0 : CellTallies nD τ sig Unit) W)

/-- A host stretch as a segment of the run: over the unscoped buffers, from the contents `W` to those after its
    operations, `side` untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

/-- A TensorCore buffer that is not scoped is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the return, apart from owing nothing: every unscoped buffer at its final contents and the
    generator register. -/
abbrev endState (c : Dev nD) : sProp 𝕄 := iprop(StableHlo.held (c : Thread nD τ) (Pipeline.ucRefs τ sig) (W4 m c) ∗ ∃ r, prngReg c r)

/-- At a kernel's exit each of its arrays holds what the tiles' write-backs leave and every other buffer what it
    held at entry: the edge kernel, -/
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- and the node kernel. -/
theorem left1 (c : Dev nD) (w : Fin cfg1.W) : (dat1 (V3 m) c).arrAt w cfg1.N = V4 m c (Pipeline.arrRef spec1 w) :=
  (W4_arr m c w).symm
theorem kept1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The two kernels as segments -/

set_option backward.isDefEq.respectTransparency.types false in
/-- The edge kernel as a segment of the run: entered with every unscoped buffer at the contents before it, left with
    them at the contents after it. On entry its operand arrays are taken out of the unscoped buffers and the rest is
    set aside; on exit they are put back at what the tiles' write-backs leave. The generator register goes into the
    kernel's invariant and comes back; the kernel owes nothing and has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ side c)
  post c := iprop(StableHlo.held (c : Thread nD τ) (Pipeline.ucRefs τ sig) (W2 m c) ∗ side c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have takeOut := Pipeline.arrays_of_unscopedBufs (p := 0) (pcfgs (F := F)) adm (pdats m) launch0.win launch0.arr_whole c
      ((pdats m 0 c).share_full fun _ => rfl) (V1 m c) fun _ => rfl
    rw [Pipeline.unscopedBufs_held] at takeOut
    iintro ⟨⟨Hbufs, Hreg, Howes⟩, -, -⟩
    ihave Hsplit := takeOut $$ Hbufs
    icases Hsplit with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have putBack := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at putBack
    iintro ⟨Harr, Howes, Hreg, Hrest⟩
    imodintro
    isplitl [Harr Hrest]
    · iapply putBack; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The node kernel as a segment of the run: entered with every unscoped buffer at the contents before it, left with
    them at the contents after it. On entry its operand arrays are taken out of the unscoped buffers and the rest is
    set aside; on exit they are put back at what the tiles' write-backs leave. The generator register goes into the
    kernel's invariant and comes back; the kernel owes nothing and has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ side c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have takeOut := Pipeline.arrays_of_unscopedBufs (p := 1) (pcfgs (F := F)) adm (pdats m) launch1.win launch1.arr_whole c
      ((pdats m 1 c).share_full fun _ => rfl) (V3 m c) fun _ => rfl
    rw [Pipeline.unscopedBufs_held] at takeOut
    iintro ⟨⟨Hbufs, Hreg, Howes⟩, -, -⟩
    ihave Hsplit := takeOut $$ Hbufs
    icases Hsplit with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have putBack := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (left1 m c) (kept1 m c)
    rw [Pipeline.unscopedBufs_held] at putBack
    iintro ⟨Harr, Howes, Hreg, Hrest⟩
    imodintro
    isplitl [Harr Hrest Hreg]
    · isplitl [Harr Hrest]
      · iapply putBack; isplitl [Harr] <;> iassumption
      iexact Hreg
    unfold Pipeline.Dat.owesAt Pipeline.owesWithin
    icases Howes with ⟨%W, -, Howes⟩; iexists W; iexact Howes

/-! ## The run -/

/-- The program's four segments in order. -/
abbrev segs : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m) ]

/-- The printed program is the run of these segments: it is the chain of the same four items. -/
theorem main_run (c : Dev nD) : main (F := F) c = Pipeline.Seg.run (segs m) := (main_chain c).trans (by chain_rfl)

set_option backward.isDefEq.respectTransparency.types false in
/-- From any memory, with every semaphore counter at zero, every weakly fair execution of the program terminates
    without a fault, and in the final state every unscoped buffer of every core holds its `W4` contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side c)) (Tₙ := endState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c),
     (h c _ (mem_uc main_arg13 (by decide))).trans (W4_main_arg13 m c),
     (h c _ (mem_uc main_arg14 (by decide))).trans (W4_main_arg14 m c)⟩) (run_all m ρ)

end Cert.KernelIdeal.Layer

end
-- ==== Proof.LayerK.lean ====
/-
  One message-passing layer run as two row-tiled kernels.

  The first kernel walks the E = 800000 edges in 100 tiles of 8000 rows: from a tile of the edge features
  (129 columns), the tile of relative positions (3 columns) and the eight weight and bias arrays (each read whole at
  every tile) it leaves the tile of edge messages  silu(silu(x·We1 + be1)·We2 + be2)  and the tile of coordinate
  contributions  rel · (silu(msg·Wc1 + bc1)·Wc2 + bc2).  The second walks the N = 50000 nodes in 25 tiles of 2000
  rows and leaves  silu(z·Wn1 + bn1)·Wn2 + bn2  of the tile of node inputs z (128 columns).

  This module names, for either kernel and any number format, the block of each operand a tile sees, what the
  tile's body leaves in each output buffer as a function of those blocks, and the contents of every buffer of the
  program at the four boundaries between its host stretches and its two kernels.
-/
import proofs.«179086_j12515534701202_1_alg».proof.Proof.LaunchBits
import proofs.«179086_j12515534701202_1_alg».proof.Proof.Gen.Kernel.Skeleton
import proofs.«179086_j12515534701202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## Whole-buffer rectangles: every load and store of either body is of a whole staging buffer -/

abbrev rX : Rect S8000x129 := Rect.unit (s := S8000x129) ![0, 0] S8000x129.size inb_S8000x129_S8000x129_0_0
abbrev rRel : Rect S8000x3 := Rect.unit (s := S8000x3) ![0, 0] S8000x3.size inb_S8000x3_S8000x3_0_0
abbrev rW1 : Rect S129x64 := Rect.unit (s := S129x64) ![0, 0] S129x64.size inb_S129x64_S129x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0
abbrev rWc : Rect S64x1 := Rect.unit (s := S64x1) ![0, 0] S64x1.size inb_S64x1_S64x1_0_0
abbrev rB1 : Rect S1x1 := Rect.unit (s := S1x1) ![0, 0] S1x1.size inb_S1x1_S1x1_0_0
abbrev rMsg : Rect S8000x64 := Rect.unit (s := S8000x64) ![0, 0] S8000x64.size inb_S8000x64_S8000x64_0_0
abbrev rZ : Rect S2000x128 := Rect.unit (s := S2000x128) ![0, 0] S2000x128.size inb_S2000x128_S2000x128_0_0
abbrev rWn : Rect S128x64 := Rect.unit (s := S128x64) ![0, 0] S128x64.size inb_S128x64_S128x64_0_0
abbrev rOut : Rect S2000x64 := Rect.unit (s := S2000x64) ![0, 0] S2000x64.size inb_S2000x64_S2000x64_0_0

theorem zero2 : (![0, 0] : Fin 2 → ℕ) = fun _ => 0 := by
  funext a; match a with | ⟨0, _⟩ => rfl | ⟨1, _⟩ => rfl

/-! ## What a tile's body leaves in each output buffer -/

/-- The tile of edge messages, from the tile of edge features and the first two layers' weights and biases. -/
def msgTile (x0 : Vec F S8000x129 .f32) (x2 : Vec F S129x64 .f32) (x3 : Vec F S1x64 .f32) (x4 : Vec F S64x64 .f32)
    (x5 : Vec F S1x64 .f32) : Vec F S8000x64 .f32 :=
  View.canon [⟨rMsg, k0_pay2 (View.ld x0 rX) (View.ld x2 rW1) (View.ld x3 rB) (View.ld x4 rW) (View.ld x5 rB)⟩]

/-- The tile of coordinate contributions: the tile of relative positions scaled row by row by the coordinate
    weight, which is two more layers on top of the tile of edge messages. -/
def coordTile (x0 : Vec F S8000x129 .f32) (x1 : Vec F S8000x3 .f32) (x2 : Vec F S129x64 .f32) (x3 : Vec F S1x64 .f32)
    (x4 : Vec F S64x64 .f32) (x5 : Vec F S1x64 .f32) (x6 : Vec F S64x64 .f32) (x7 : Vec F S1x64 .f32)
    (x8 : Vec F S64x1 .f32) (x9 : Vec F S1x1 .f32) : Vec F S8000x3 .f32 :=
  View.canon [⟨rRel, k0_pay1 (k0_pay3 (View.ld x0 rX) (View.ld x2 rW1) (View.ld x3 rB) (View.ld x4 rW) (View.ld x5 rB)
    (View.ld x6 rW) (View.ld x7 rB) (View.ld x8 rWc)) (View.ld x9 rB1) (View.ld x1 rRel)⟩]

/-- The tile of node outputs, from the tile of node inputs and the node layers' weights and biases. -/
def nodeTile (x0 : Vec F S2000x128 .f32) (x1 : Vec F S128x64 .f32) (x2 : Vec F S1x64 .f32) (x3 : Vec F S64x64 .f32)
    (x4 : Vec F S1x64 .f32) : Vec F S2000x64 .f32 :=
  View.canon [⟨rOut, k1_pay1 (View.ld x0 rZ) (View.ld x1 rWn) (View.ld x2 rB) (View.ld x3 rW) (View.ld x4 rB)⟩]

/-- A whole-buffer load reads the buffer and one whole-buffer store leaves its value: the tile of edge messages
    is the body's arithmetic on the blocks themselves. -/
theorem msgTile_eq (x0 : Vec F S8000x129 .f32) (x2 : Vec F S129x64 .f32) (x3 : Vec F S1x64 .f32)
    (x4 : Vec F S64x64 .f32) (x5 : Vec F S1x64 .f32) : msgTile x0 x2 x3 x4 x5 = k0_pay2 x0 x2 x3 x4 x5 := by
  unfold msgTile
  rw [View.canon_unit_zero zero2]
  simp only [View.ld_unit_zero (S := S8000x129) zero2, View.ld_unit_zero (S := S129x64) zero2,
    View.ld_unit_zero (S := S1x64) zero2, View.ld_unit_zero (S := S64x64) zero2]

theorem coordTile_eq (x0 : Vec F S8000x129 .f32) (x1 : Vec F S8000x3 .f32) (x2 : Vec F S129x64 .f32)
    (x3 : Vec F S1x64 .f32) (x4 : Vec F S64x64 .f32) (x5 : Vec F S1x64 .f32) (x6 : Vec F S64x64 .f32)
    (x7 : Vec F S1x64 .f32) (x8 : Vec F S64x1 .f32) (x9 : Vec F S1x1 .f32) :
    coordTile x0 x1 x2 x3 x4 x5 x6 x7 x8 x9 = k0_pay1 (k0_pay3 x0 x2 x3 x4 x5 x6 x7 x8) x9 x1 := by
  unfold coordTile
  rw [View.canon_unit_zero zero2]
  simp only [View.ld_unit_zero (S := S8000x129) zero2, View.ld_unit_zero (S := S129x64) zero2,
    View.ld_unit_zero (S := S1x64) zero2, View.ld_unit_zero (S := S64x64) zero2,
    View.ld_unit_zero (S := S64x1) zero2, View.ld_unit_zero (S := S1x1) zero2, View.ld_unit_zero (S := S8000x3) zero2]

theorem nodeTile_eq (x0 : Vec F S2000x128 .f32) (x1 : Vec F S128x64 .f32) (x2 : Vec F S1x64 .f32)
    (x3 : Vec F S64x64 .f32) (x4 : Vec F S1x64 .f32) : nodeTile x0 x1 x2 x3 x4 = k1_pay1 x0 x1 x2 x3 x4 := by
  unfold nodeTile
  rw [View.canon_unit_zero zero2]
  simp only [View.ld_unit_zero (S := S2000x128) zero2, View.ld_unit_zero (S := S128x64) zero2,
    View.ld_unit_zero (S := S1x64) zero2, View.ld_unit_zero (S := S64x64) zero2]

section Regions

-- the contents of core `c`'s buffers when a kernel is entered
variable (V : (c : Dev nD) → (b : Ref sig .tc) → Buf (Elt F) ((c : Thread nD τ).loc b))

/-! ## The edge kernel -/

/-- Operand `w`'s block at tile `t`, read off its array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge kernel's bookkeeping on core `c`: its arrays as found; after tile `t` every input buffer still at
    its block and the two output buffers at the tile of edge messages and the tile of coordinate contributions. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => msgTile (blk0 V c 0 t) (blk0 V c 2 t) (blk0 V c 3 t) (blk0 V c 4 t) (blk0 V c 5 t)
    | ⟨11, _⟩ => coordTile (blk0 V c 0 t) (blk0 V c 1 t) (blk0 V c 2 t) (blk0 V c 3 t) (blk0 V c 4 t) (blk0 V c 5 t)
        (blk0 V c 6 t) (blk0 V c 7 t) (blk0 V c 8 t) (blk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = blk0 V c 8 t := by dsimp only [dat0]
theorem after0_9 (c : Dev nD) (t : Fin cfg0.N) : (dat0 V c).after 9 t = blk0 V c 9 t := by dsimp only [dat0]
theorem after0_10 (c : Dev nD) (t : Fin cfg0.N) : (dat0 V c).after 10 t
    = msgTile (blk0 V c 0 t) (blk0 V c 2 t) (blk0 V c 3 t) (blk0 V c 4 t) (blk0 V c 5 t) := by dsimp only [dat0]
theorem after0_11 (c : Dev nD) (t : Fin cfg0.N) : (dat0 V c).after 11 t
    = coordTile (blk0 V c 0 t) (blk0 V c 1 t) (blk0 V c 2 t) (blk0 V c 3 t) (blk0 V c 4 t) (blk0 V c 5 t)
        (blk0 V c 6 t) (blk0 V c 7 t) (blk0 V c 8 t) (blk0 V c 9 t) := by dsimp only [dat0]

/-! ## The node kernel -/

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node kernel's bookkeeping on core `c`: its arrays as found; after tile `t` every input buffer still at
    its block and the output buffer at the tile of node outputs. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => nodeTile (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t
    = nodeTile (blk1 V c 0 t) (blk1 V c 1 t) (blk1 V c 2 t) (blk1 V c 3 t) (blk1 V c 4 t) := by dsimp only [dat1]

end Regions

/-! ## The buffers' contents at each boundary of the program: a fold from the launch memory -/

variable (m : (ℓ : Loc nD τ sig) → Buf (Elt F) ℓ)

/-- Core `c`'s buffers at launch. -/
abbrev W0 : Dev nD → Valuation τ sig (Elt F) := fun c b => m (c, b)
/-- After the first host stretch (gathers, squared distance, concatenation, bias reshapes): the edge kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the edge kernel's exit: its two result arrays at what its tiles wrote back, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the two scatter-adds, the position update, the node inputs): the node kernel's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the node kernel's exit: its result array at what its tiles wrote back, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

end Cert.Kernel.Layer

end
-- ==== Proof.EdgeBodyK.lean ====
/-
  The edge kernel's body at one tile.

  A tile of the edge kernel sees a tile of 8000 rows of the edge features (129 columns) and of the relative positions
  (3 columns), and the whole of the eight weight and bias arrays. Its body reads the ten staging buffers whole; from
  the features and the first two layers it forms the tile of edge messages, from the messages and two more layers a
  weight per edge, and from that weight and the relative positions the tile of coordinate contributions; it writes
  each of the two results over the whole of its staging buffer (each of which it also reads once first, to no effect).

  This module shows: every input's staging buffer holds that input's block at every tile, whether or not the pipeline
  fetched it there (the weights and biases are fetched at the first tile only and stay put); the body, run on whole
  staging buffers, gives the inputs back as found and leaves the two tiles in the output buffers; and from the two
  the pipeline's obligation on the body at every tile.
-/
import proofs.«179086_j12515534701202_1_alg».proof.Proof.LayerK

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every tile

An input window is never cut and never idle; where it is not fetched its block index has not moved since the tile
before, and the body left the buffer as it found it. -/

theorem holds0_0 (c : Dev nD) (t : Fin cfg0.N) (d) : (dat0 V c).before 0 t d = blk0 V c 0 t :=
  ((dat0 V c).before_in_eq_fetched 0 rfl (fun _ => rfl) (fun _ _ _ => rfl)
      (fun t => by rw [after0_0 V c t]; unfold Dat.blockOf blk0; rw [A_eq0]; try rfl) t d).trans
    (by unfold Dat.fetched Dat.blockOf blk0; rw [A_eq0]; try rfl)
theorem holds0_1 (c : Dev nD) (t : Fin cfg0.N) (d) : (dat0 V c).before 1 t d = blk0 V c 1 t :=
  ((dat0 V c).before_in_eq_fetched 1 rfl (fun _ => rfl) (fun _ _ _ => rfl)
      (fun t => by rw [after0_1 V c t]; unfold Dat.blockOf blk0; rw [A_eq0]; try rfl) t d).trans
    (by unfold Dat.fetched Dat.blockOf blk0; rw [A_eq0]; try rfl)
theorem holds0_2 (c : Dev nD) (t : Fin cfg0.N) (d) : (dat0 V c).before 2 t d = blk0 V c 2 t :=
  ((dat0 V c).before_in_eq_fetched 2 rfl (fun _ => rfl) (fun _ _ _ => rfl)
      (fun t => by rw [after0_2 V c t]; unfold Dat.blockOf blk0; rw [A_eq0]; try rfl) t d).trans
    (by unfold Dat.fetched Dat.blockOf blk0; rw [A_eq0]; try rfl)
theorem holds0_3 (c : Dev nD) (t : Fin cfg0.N) (d) : (dat0 V c).before 3 t d = blk0 V c 3 t :=
  ((dat0 V c).before_in_eq_fetched 3 rfl (fun _ => rfl) (fun _ _ _ => rfl)
      (fun t => by rw [after0_3 V c t]; unfold Dat.blockOf blk0; rw [A_eq0]; try rfl) t d).trans
    (by unfold Dat.fetched Dat.blockOf blk0; rw [A_eq0]; try rfl)
theorem holds0_4 (c : Dev nD) (t : Fin cfg0.N) (d) : (dat0 V c).before 4 t d = blk0 V c 4 t :=
  ((dat0 V c).before_in_eq_fetched 4 rfl (fun _ => rfl) (fun _ _ _ => rfl)
      (fun t => by rw [after0_4 V c t]; unfold Dat.blockOf blk0; rw [A_eq0]; try rfl) t d).trans
    (by unfold Dat.fetched Dat.blockOf blk0; rw [A_eq0]; try rfl)
theorem holds0_5 (c : Dev nD) (t : Fin cfg0.N) (d) : (dat0 V c).before 5 t d = blk0 V c 5 t :=
  ((dat0 V c).before_in_eq_fetched 5 rfl (fun _ => rfl) (fun _ _ _ => rfl)
      (fun t => by rw [after0_5 V c t]; unfold Dat.blockOf blk0; rw [A_eq0]; try rfl) t d).trans
    (by unfold Dat.fetched Dat.blockOf blk0; rw [A_eq0]; try rfl)
theorem holds0_6 (c : Dev nD) (t : Fin cfg0.N) (d) : (dat0 V c).before 6 t d = blk0 V c 6 t :=
  ((dat0 V c).before_in_eq_fetched 6 rfl (fun _ => rfl) (fun _ _ _ => rfl)
      (fun t => by rw [after0_6 V c t]; unfold Dat.blockOf blk0; rw [A_eq0]; try rfl) t d).trans
    (by unfold Dat.fetched Dat.blockOf blk0; rw [A_eq0]; try rfl)
theorem holds0_7 (c : Dev nD) (t : Fin cfg0.N) (d) : (dat0 V c).before 7 t d = blk0 V c 7 t :=
  ((dat0 V c).before_in_eq_fetched 7 rfl (fun _ => rfl) (fun _ _ _ => rfl)
      (fun t => by rw [after0_7 V c t]; unfold Dat.blockOf blk0; rw [A_eq0]; try rfl) t d).trans
    (by unfold Dat.fetched Dat.blockOf blk0; rw [A_eq0]; try rfl)
theorem holds0_8 (c : Dev nD) (t : Fin cfg0.N) (d) : (dat0 V c).before 8 t d = blk0 V c 8 t :=
  ((dat0 V c).before_in_eq_fetched 8 rfl (fun _ => rfl) (fun _ _ _ => rfl)
      (fun t => by rw [after0_8 V c t]; unfold Dat.blockOf blk0; rw [A_eq0]; try rfl) t d).trans
    (by unfold Dat.fetched Dat.blockOf blk0; rw [A_eq0]; try rfl)
theorem holds0_9 (c : Dev nD) (t : Fin cfg0.N) (d) : (dat0 V c).before 9 t d = blk0 V c 9 t :=
  ((dat0 V c).before_in_eq_fetched 9 rfl (fun _ => rfl) (fun _ _ _ => rfl)
      (fun t => by rw [after0_9 V c t]; unfold Dat.blockOf blk0; rw [A_eq0]; try rfl) t d).trans
    (by unfold Dat.fetched Dat.blockOf blk0; rw [A_eq0]; try rfl)

/-! ## The body on whole staging buffers -/

/-- One store of the whole buffer covers it: the buffer of edge messages, -/
theorem msgCover (p : Vec F S8000x64 .f32) (y : S8000x64.Idx) :
    ∃ pc ∈ ([⟨rMsg, p⟩] : List (View.Piece (Elt F) S8000x64 .f32)), y ∈ pc.1.set :=
  View.cover_of_tiled [⟨rMsg, p⟩] S8000x64.size (by rfl) y

/-- and the buffer of coordinate contributions. -/
theorem coordCover (p : Vec F S8000x3 .f32) (y : S8000x3.Idx) :
    ∃ pc ∈ ([⟨rRel, p⟩] : List (View.Piece (Elt F) S8000x3 .f32)), y ∈ pc.1.set :=
  View.cover_of_tiled [⟨rRel, p⟩] S8000x3.size (by rfl) y

set_option maxHeartbeats 4000000 in
/-- The body, with the ten inputs' buffers read as `x0 … x9` and the two outputs' buffers at anything, runs to any
    continuation that accepts the inputs' buffers unchanged, the first output's at the tile of edge messages and the
    second's at the tile of coordinate contributions. -/
theorem edge_triple (c : Dev nD) (E : Set ℕ) (i : grid0.Coords)
    (a0 : Memref sig .tc .vmem S8000x129 .f32) (h0 : a0.IsWhole)
    (a1 : Memref sig .tc .vmem S8000x3 .f32) (h1 : a1.IsWhole)
    (a2 : Memref sig .tc .vmem S129x64 .f32) (h2 : a2.IsWhole)
    (a3 : Memref sig .tc .vmem S1x64 .f32) (h3 : a3.IsWhole)
    (a4 : Memref sig .tc .vmem S64x64 .f32) (h4 : a4.IsWhole)
    (a5 : Memref sig .tc .vmem S1x64 .f32) (h5 : a5.IsWhole)
    (a6 : Memref sig .tc .vmem S64x64 .f32) (h6 : a6.IsWhole)
    (a7 : Memref sig .tc .vmem S1x64 .f32) (h7 : a7.IsWhole)
    (a8 : Memref sig .tc .vmem S64x1 .f32) (h8 : a8.IsWhole)
    (a9 : Memref sig .tc .vmem S1x1 .f32) (h9 : a9.IsWhole)
    (a10 : Memref sig .tc .vmem S8000x64 .f32) (h10 : a10.IsWhole)
    (a11 : Memref sig .tc .vmem S8000x3 .f32) (h11 : a11.IsWhole)
    (x0 : Vec F S8000x129 .f32)
    (x1 : Vec F S8000x3 .f32)
    (x2 : Vec F S129x64 .f32)
    (x3 : Vec F S1x64 .f32)
    (x4 : Vec F S64x64 .f32)
    (x5 : Vec F S1x64 .f32)
    (x6 : Vec F S64x64 .f32)
    (x7 : Vec F S1x64 .f32)
    (x8 : Vec F S64x1 .f32)
    (x9 : Vec F S1x1 .f32)
    (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ (∃ d, owns (c : Thread nD τ) a10 fullShare d) ∗ (∃ d, owns (c : Thread nD τ) a11 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare (msgTile x0 x2 x3 x4 x5)
            ∗ owns (c : Thread nD τ) a11 fullShare (coordTile x0 x1 x2 x3 x4 x5 x6 x7 x8 x9)) -∗ K ⟨⟩))
      ⊢ wp frame (wpE (defs₀ (F := F)) Variants.none c none) E
          (cc0__edge_kernel i a0 h0 a1 h1 a2 h2 a3 h3 a4 h4 a5 h5 a6 h6 a7 h7 a8 h8 a9 h9 a10 h10 a11 h11) K := by
  simp only [cc0__edge_kernel_eq_skeleton]; unfold cc0__edge_kernel_skel
  simp only [k0_part1_eq_skeleton]; unfold k0_part1_skel
  unfold owns msgTile coordTile
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, Hk⟩
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (msgCover _)
  iexists _; isplitr
  swap; · iexact H11
  ipureintro
  exact View.read_writes_eq_canon _ _ _ (coordCover _)

/-! ## The pipeline's obligation on the body -/

/-- What the body is entered with at tile `t`: the invariant, what the core owes, and each window's current
    staging buffer at what it then holds. -/
def edgePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it leaves: the same at the next tile, each buffer at what the body leaves in it. -/
def edgePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any tile: the inputs' buffers hold their blocks, so the triple applies; the invariant and what the
    core owes are neither read nor changed. -/
theorem edge_step (c : Dev nD) (t : Fin cfg0.N) :
    edgePre V c t ⊢ wp frame (wpE (defs₀ (F := F)) Variants.none c none) Set.univ (bodyAt0 t) (fun _ => edgePost V c t) := by
  unfold edgePre edgePost bodyAt0
  simp only [holds0_0, holds0_1, holds0_2, holds0_3, holds0_4, holds0_5, holds0_6, holds0_7, holds0_8, holds0_9]
  rw [show (dat0 V c).Φ t.succ = (dat0 V c).Φ t.castSucc from rfl,
    show (dat0 V c).owesAt () t.succ = (dat0 V c).owesAt () t.castSucc from rfl,
    after0_0 V c t, after0_1 V c t, after0_2 V c t, after0_3 V c t, after0_4 V c t, after0_5 V c t, after0_6 V c t, after0_7 V c t, after0_8 V c t, after0_9 V c t,
    after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (edge_triple c Set.univ _ _ _ _ _ _ _ _ _ _ _ _ _ _ _ _ _ _ _ _ _ _ _ _ _
    (blk0 V c 0 t) (blk0 V c 1 t) (blk0 V c 2 t) (blk0 V c 3 t) (blk0 V c 4 t) (blk0 V c 5 t) (blk0 V c 6 t) (blk0 V c 7 t) (blk0 V c 8 t) (blk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's obligation on the edge kernel's body, at every tile. -/
theorem body_obligation0 (c : Dev nD) : BodyObligation (dat0 (F := F) V c) (defs₀ (F := F)) Variants.none () Set.univ := fun t => by
  rw [bigSep_W0, bigSep_W0]
  exact edge_step V c t

end

end Cert.Kernel.Layer

end
-- ==== Proof.NodeBodyK.lean ====
/-
  The node kernel's body at one tile.

  A tile of the node kernel sees a tile of 2000 rows of the node inputs and the whole of the two weight arrays and the
  two bias rows. Its body reads each of the five staging buffers whole, computes  silu(z·Wn1 + bn1)·Wn2 + bn2  and
  writes the result over the whole of the output's staging buffer (which it also reads once first, to no effect).

  This module shows: every input's staging buffer holds that input's block at every tile, whether or not the pipeline
  fetched it there (a weight array is fetched at the first tile only and stays put); the body, run on whole staging
  buffers, gives the inputs back as found and leaves the tile of node outputs in the output buffer; and from the two
  the pipeline's obligation on the body at every tile.
-/
import proofs.«179086_j12515534701202_1_alg».proof.Proof.LayerK

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every tile

An input window is never cut and never idle; where it is not fetched its block index has not moved since the tile
before, and the body left the buffer as it found it. -/

theorem holds1_0 (c : Dev nD) (t : Fin cfg1.N) (d) : (dat1 V c).before 0 t d = blk1 V c 0 t :=
  ((dat1 V c).before_in_eq_fetched 0 rfl (fun _ => rfl) (fun _ _ _ => rfl)
      (fun t => by rw [after1_0 V c t]; unfold Dat.blockOf blk1; rw [A_eq1]; try rfl) t d).trans
    (by unfold Dat.fetched Dat.blockOf blk1; rw [A_eq1]; try rfl)
theorem holds1_1 (c : Dev nD) (t : Fin cfg1.N) (d) : (dat1 V c).before 1 t d = blk1 V c 1 t :=
  ((dat1 V c).before_in_eq_fetched 1 rfl (fun _ => rfl) (fun _ _ _ => rfl)
      (fun t => by rw [after1_1 V c t]; unfold Dat.blockOf blk1; rw [A_eq1]; try rfl) t d).trans
    (by unfold Dat.fetched Dat.blockOf blk1; rw [A_eq1]; try rfl)
theorem holds1_2 (c : Dev nD) (t : Fin cfg1.N) (d) : (dat1 V c).before 2 t d = blk1 V c 2 t :=
  ((dat1 V c).before_in_eq_fetched 2 rfl (fun _ => rfl) (fun _ _ _ => rfl)
      (fun t => by rw [after1_2 V c t]; unfold Dat.blockOf blk1; rw [A_eq1]; try rfl) t d).trans
    (by unfold Dat.fetched Dat.blockOf blk1; rw [A_eq1]; try rfl)
theorem holds1_3 (c : Dev nD) (t : Fin cfg1.N) (d) : (dat1 V c).before 3 t d = blk1 V c 3 t :=
  ((dat1 V c).before_in_eq_fetched 3 rfl (fun _ => rfl) (fun _ _ _ => rfl)
      (fun t => by rw [after1_3 V c t]; unfold Dat.blockOf blk1; rw [A_eq1]; try rfl) t d).trans
    (by unfold Dat.fetched Dat.blockOf blk1; rw [A_eq1]; try rfl)
theorem holds1_4 (c : Dev nD) (t : Fin cfg1.N) (d) : (dat1 V c).before 4 t d = blk1 V c 4 t :=
  ((dat1 V c).before_in_eq_fetched 4 rfl (fun _ => rfl) (fun _ _ _ => rfl)
      (fun t => by rw [after1_4 V c t]; unfold Dat.blockOf blk1; rw [A_eq1]; try rfl) t d).trans
    (by unfold Dat.fetched Dat.blockOf blk1; rw [A_eq1]; try rfl)

/-! ## The body on whole staging buffers -/

/-- One store of the whole buffer covers it. -/
theorem nodeCover (p : Vec F S2000x64 .f32) (y : S2000x64.Idx) :
    ∃ pc ∈ ([⟨rOut, p⟩] : List (View.Piece (Elt F) S2000x64 .f32)), y ∈ pc.1.set :=
  View.cover_of_tiled [⟨rOut, p⟩] S2000x64.size (by rfl) y

set_option maxHeartbeats 1000000 in
/-- The body, with the five inputs' buffers read as `x0 … x4` and the output's buffer at anything, runs to any
    continuation that accepts the inputs' buffers unchanged and the output's at the tile of node outputs. -/
theorem node_triple (c : Dev nD) (E : Set ℕ) (i : grid1.Coords)
    (a0 : Memref sig .tc .vmem S2000x128 .f32) (h0 : a0.IsWhole) (a1 : Memref sig .tc .vmem S128x64 .f32) (h1 : a1.IsWhole)
    (a2 : Memref sig .tc .vmem S1x64 .f32) (h2 : a2.IsWhole) (a3 : Memref sig .tc .vmem S64x64 .f32) (h3 : a3.IsWhole)
    (a4 : Memref sig .tc .vmem S1x64 .f32) (h4 : a4.IsWhole) (a5 : Memref sig .tc .vmem S2000x64 .f32) (h5 : a5.IsWhole)
    (x0 : Vec F S2000x128 .f32) (x1 : Vec F S128x64 .f32) (x2 : Vec F S1x64 .f32) (x3 : Vec F S64x64 .f32)
    (x4 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (nodeTile x0 x1 x2 x3 x4)) -∗ K ⟨⟩))
      ⊢ wp frame (wpE (defs₀ (F := F)) Variants.none c none) E (cc1__node_kernel i a0 h0 a1 h1 a2 h2 a3 h3 a4 h4 a5 h5) K := by
  simp only [cc1__node_kernel_eq_skeleton]; unfold cc1__node_kernel_skel
  unfold owns nodeTile
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (nodeCover _)

/-! ## The pipeline's obligation on the body -/

/-- What the body is entered with at tile `t`: the invariant, what the core owes, and each window's current
    staging buffer at what it then holds. -/
def nodePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it leaves: the same at the next tile, each buffer at what the body leaves in it. -/
def nodePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' buffers hold their blocks, so the triple applies; the invariant and what the
    core owes are neither read nor changed. -/
theorem node_step (c : Dev nD) (t : Fin cfg1.N) :
    nodePre V c t ⊢ wp frame (wpE (defs₀ (F := F)) Variants.none c none) Set.univ (bodyAt1 t) (fun _ => nodePost V c t) := by
  unfold nodePre nodePost bodyAt1
  simp only [holds1_0, holds1_1, holds1_2, holds1_3, holds1_4]
  rw [show (dat1 V c).Φ t.succ = (dat1 V c).Φ t.castSucc from rfl,
    show (dat1 V c).owesAt () t.succ = (dat1 V c).owesAt () t.castSucc from rfl,
    after1_0 V c t, after1_1 V c t, after1_2 V c t,
    after1_3 V c t, after1_4 V c t, after1_5]
  iintro ⟨HΦ, Ho, ⟨%d0, H0⟩, ⟨%d1, H1⟩, ⟨%d2, H2⟩, ⟨%d3, H3⟩, ⟨%d4, H4⟩, ⟨%d5, H5⟩⟩
  iapply (node_triple c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the node kernel's body, at every tile. -/
theorem body_obligation1 (c : Dev nD) : BodyObligation (dat1 (F := F) V c) (defs₀ (F := F)) Variants.none () Set.univ := fun t => by
  rw [bigSep_W1, bigSep_W1]
  exact node_step V c t

end

end Cert.Kernel.Layer

end
-- ==== Proof.RunK.lean ====
/-
  The whole layer, from launch to return.

  The program is four stretches in a row: host operations that build the edge kernel's operands (the gathered
  endpoint features, the squared distance, their concatenation; the biases as rows), the edge kernel over its 100
  tiles, host operations that sum the messages and the coordinate contributions into the nodes and build the node
  kernel's operands, and the node kernel over its 25 tiles. Layer.lean names the contents of every buffer at the five
  boundaries, `W0 … W4`, as a fold from the launch memory.

  This module shows that every weakly fair execution of the program from any memory terminates without a fault in a
  state whose every unscoped buffer holds its `W4` contents, and that at each of the fifteen argument arrays those are
  the launch contents: no host operation writes an argument, and a kernel either never sees it or only reads it
  through an input window.
-/
import proofs.«179086_j12515534701202_1_alg».proof.Proof.EdgeBodyK
import proofs.«179086_j12515534701202_1_alg».proof.Proof.NodeBodyK

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the host stretches write -/

/-- No host operation before the edge kernel allocates a buffer, -/
theorem hostOps0_fresh : (hostOps0 : List (HloOp τ sig (Elt F))).Forall fun op => op.fresh = ∅ := by
  simp only [List.Forall]; repeat' constructor
/-- and none between the two kernels. -/
theorem hostOps1_fresh : (hostOps1 : List (HloOp τ sig (Elt F))).Forall fun op => op.fresh = ∅ := by
  simp only [List.Forall]; repeat' constructor

/-- The buffers the first stretch writes: each operation's result, in order. -/
abbrev wrote0 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_v32, main_v33, main_cst, main_v34, main_v35, main_v36, main_v37, main_v38, main_v39, main_v40]
/-- The buffers the second stretch writes. -/
abbrev wrote1 : List (Ref sig .tc) := [main_cst_7, main_v42, main_v43, main_v44, main_v45, main_cst_8, main_v46, main_v47, main_v48, main_v49, main_v50, main_v51]

theorem hostOps0_writes : (hostOps0 : List (HloOp τ sig (Elt F))).Forall fun op => op.writes ⊆ (wrote0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

theorem hostOps1_writes : (hostOps1 : List (HloOp τ sig (Elt F))).Forall fun op => op.writes ⊆ (wrote1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, StableHlo.nary_writes, Finset.singleton_subset_iff, List.mem_toFinset]
    exact List.mem_map_of_mem (by decide)

variable (m : (ℓ : Loc nD τ sig) → Buf (Elt F) ℓ) (ρ : Dev nD → PrngReg)

/-! ## An argument array ends as launched -/

/-- A kernel leaves the array of an input window as it found it: the edge kernel, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- and the node kernel. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- A buffer neither host stretch writes and both kernels leave alone holds at the end what it held at launch. -/
theorem back_to_launch (c : Dev nD) (b : Ref sig .tc) (h3 : b ∉ wrote1) (h1 : b ∉ wrote0)
    (h4 : W4 m c (Proc.devRef .tc b) = W3 m c (Proc.devRef .tc b))
    (h2 : W2 m c (Proc.devRef .tc b) = W1 m c (Proc.devRef .tc b)) :
    W4 m c (Proc.devRef .tc b) = m ((c : Thread nD τ).loc b) :=
  h4.trans <| (StableHlo.after_of_writes_sub hostOps1 _ hostOps1_writes h3).trans <| h2.trans <|
    (StableHlo.after_of_writes_sub hostOps0 _ hostOps0_writes h1).trans rfl

theorem W4_main_arg0 (c : Dev nD) : W4 m c (Proc.devRef .tc main_arg0) = m ((c : Thread nD τ).loc main_arg0) :=
  back_to_launch m c main_arg0 (by decide) (by decide) (W4_of_ne m c main_arg0 (by decide)) (W2_of_ne m c main_arg0 (by decide))
theorem W4_main_arg1 (c : Dev nD) : W4 m c (Proc.devRef .tc main_arg1) = m ((c : Thread nD τ).loc main_arg1) :=
  back_to_launch m c main_arg1 (by decide) (by decide) (W4_of_ne m c main_arg1 (by decide)) (W2_of_ne m c main_arg1 (by decide))
theorem W4_main_arg2 (c : Dev nD) : W4 m c (Proc.devRef .tc main_arg2) = m ((c : Thread nD τ).loc main_arg2) :=
  back_to_launch m c main_arg2 (by decide) (by decide) (W4_of_ne m c main_arg2 (by decide)) (W2_of_ne m c main_arg2 (by decide))
theorem W4_main_arg3 (c : Dev nD) : W4 m c (Proc.devRef .tc main_arg3) = m ((c : Thread nD τ).loc main_arg3) :=
  back_to_launch m c main_arg3 (by decide) (by decide) (W4_of_ne m c main_arg3 (by decide)) (W2_in m c 2 rfl)
theorem W4_main_arg4 (c : Dev nD) : W4 m c (Proc.devRef .tc main_arg4) = m ((c : Thread nD τ).loc main_arg4) :=
  back_to_launch m c main_arg4 (by decide) (by decide) (W4_of_ne m c main_arg4 (by decide)) (W2_of_ne m c main_arg4 (by decide))
theorem W4_main_arg5 (c : Dev nD) : W4 m c (Proc.devRef .tc main_arg5) = m ((c : Thread nD τ).loc main_arg5) :=
  back_to_launch m c main_arg5 (by decide) (by decide) (W4_of_ne m c main_arg5 (by decide)) (W2_in m c 4 rfl)
theorem W4_main_arg6 (c : Dev nD) : W4 m c (Proc.devRef .tc main_arg6) = m ((c : Thread nD τ).loc main_arg6) :=
  back_to_launch m c main_arg6 (by decide) (by decide) (W4_of_ne m c main_arg6 (by decide)) (W2_of_ne m c main_arg6 (by decide))
theorem W4_main_arg7 (c : Dev nD) : W4 m c (Proc.devRef .tc main_arg7) = m ((c : Thread nD τ).loc main_arg7) :=
  back_to_launch m c main_arg7 (by decide) (by decide) (W4_of_ne m c main_arg7 (by decide)) (W2_in m c 6 rfl)
theorem W4_main_arg8 (c : Dev nD) : W4 m c (Proc.devRef .tc main_arg8) = m ((c : Thread nD τ).loc main_arg8) :=
  back_to_launch m c main_arg8 (by decide) (by decide) (W4_of_ne m c main_arg8 (by decide)) (W2_of_ne m c main_arg8 (by decide))
theorem W4_main_arg9 (c : Dev nD) : W4 m c (Proc.devRef .tc main_arg9) = m ((c : Thread nD τ).loc main_arg9) :=
  back_to_launch m c main_arg9 (by decide) (by decide) (W4_of_ne m c main_arg9 (by decide)) (W2_in m c 8 rfl)
theorem W4_main_arg10 (c : Dev nD) : W4 m c (Proc.devRef .tc main_arg10) = m ((c : Thread nD τ).loc main_arg10) :=
  back_to_launch m c main_arg10 (by decide) (by decide) (W4_of_ne m c main_arg10 (by decide)) (W2_of_ne m c main_arg10 (by decide))
theorem W4_main_arg11 (c : Dev nD) : W4 m c (Proc.devRef .tc main_arg11) = m ((c : Thread nD τ).loc main_arg11) :=
  back_to_launch m c main_arg11 (by decide) (by decide) (W4_in m c 1 rfl) (W2_of_ne m c main_arg11 (by decide))
theorem W4_main_arg12 (c : Dev nD) : W4 m c (Proc.devRef .tc main_arg12) = m ((c : Thread nD τ).loc main_arg12) :=
  back_to_launch m c main_arg12 (by decide) (by decide) (W4_of_ne m c main_arg12 (by decide)) (W2_of_ne m c main_arg12 (by decide))
theorem W4_main_arg13 (c : Dev nD) : W4 m c (Proc.devRef .tc main_arg13) = m ((c : Thread nD τ).loc main_arg13) :=
  back_to_launch m c main_arg13 (by decide) (by decide) (W4_in m c 3 rfl) (W2_of_ne m c main_arg13 (by decide))
theorem W4_main_arg14 (c : Dev nD) : W4 m c (Proc.devRef .tc main_arg14) = m ((c : Thread nD τ).loc main_arg14) :=
  back_to_launch m c main_arg14 (by decide) (by decide) (W4_of_ne m c main_arg14 (by decide)) (W2_of_ne m c main_arg14 (by decide))

/-! ## The kernels' bookkeeping, and what rides beside the buffers -/

/-- Neither kernel has a prefetched table. -/
abbrev adm : (p : Fin 2) → (pcfgs (F := F) p).Adm := fun p => (cfgs p).toPCfg_adm

/-- Each kernel's bookkeeping at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
/-- No core ever owes another anything, so no level is assigned. -/
abbrev L : GSem nD τ sig → Finset Unit := fun _ => ∅
abbrev lv : GSem nD τ sig → Unit → ℕ := fun _ _ => 0

/-- What a core holds beside its buffers through the whole run: its generator register at some state, and the
    record that it owes nothing. -/
abbrev side (c : Dev nD) : sProp 𝕄 := iprop((∃ r, prngReg c r) ∗ ∃ W, owes (c : Thread nD τ) (0 : CellTallies nD τ sig Unit) W)

/-- A host stretch as a segment of the run: over the unscoped buffers, from the contents `W` to those after its
    operations, `side` untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

/-- A TensorCore buffer that is not scoped is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the return, apart from owing nothing: every unscoped buffer at its final contents and the
    generator register. -/
abbrev endState (c : Dev nD) : sProp 𝕄 := iprop(StableHlo.held (c : Thread nD τ) (Pipeline.ucRefs τ sig) (W4 m c) ∗ ∃ r, prngReg c r)

/-- At a kernel's exit each of its arrays holds what the tiles' write-backs leave and every other buffer what it
    held at entry: the edge kernel, -/
theorem left0 (c : Dev nD) (w : Fin cfg0.W) : (dat0 (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- and the node kernel. -/
theorem left1 (c : Dev nD) (w : Fin cfg1.W) : (dat1 (V3 m) c).arrAt w cfg1.N = V4 m c (Pipeline.arrRef spec1 w) :=
  (W4_arr m c w).symm
theorem kept1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The two kernels as segments -/

set_option backward.isDefEq.respectTransparency.types false in
/-- The edge kernel as a segment of the run: entered with every unscoped buffer at the contents before it, left with
    them at the contents after it. On entry its operand arrays are taken out of the unscoped buffers and the rest is
    set aside; on exit they are put back at what the tiles' write-backs leave. The generator register goes into the
    kernel's invariant and comes back; the kernel owes nothing and has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ side c)
  post c := iprop(StableHlo.held (c : Thread nD τ) (Pipeline.ucRefs τ sig) (W2 m c) ∗ side c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have takeOut := Pipeline.arrays_of_unscopedBufs (p := 0) (pcfgs (F := F)) adm (pdats m) launch0.win launch0.arr_whole c
      ((pdats m 0 c).share_full fun _ => rfl) (V1 m c) fun _ => rfl
    rw [Pipeline.unscopedBufs_held] at takeOut
    iintro ⟨⟨Hbufs, Hreg, Howes⟩, -, -⟩
    ihave Hsplit := takeOut $$ Hbufs
    icases Hsplit with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have putBack := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at putBack
    iintro ⟨Harr, Howes, Hreg, Hrest⟩
    imodintro
    isplitl [Harr Hrest]
    · iapply putBack; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The node kernel as a segment of the run: entered with every unscoped buffer at the contents before it, left with
    them at the contents after it. On entry its operand arrays are taken out of the unscoped buffers and the rest is
    set aside; on exit they are put back at what the tiles' write-backs leave. The generator register goes into the
    kernel's invariant and comes back; the kernel owes nothing and has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ side c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have takeOut := Pipeline.arrays_of_unscopedBufs (p := 1) (pcfgs (F := F)) adm (pdats m) launch1.win launch1.arr_whole c
      ((pdats m 1 c).share_full fun _ => rfl) (V3 m c) fun _ => rfl
    rw [Pipeline.unscopedBufs_held] at takeOut
    iintro ⟨⟨Hbufs, Hreg, Howes⟩, -, -⟩
    ihave Hsplit := takeOut $$ Hbufs
    icases Hsplit with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have putBack := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (left1 m c) (kept1 m c)
    rw [Pipeline.unscopedBufs_held] at putBack
    iintro ⟨Harr, Howes, Hreg, Hrest⟩
    imodintro
    isplitl [Harr Hrest Hreg]
    · isplitl [Harr Hrest]
      · iapply putBack; isplitl [Harr] <;> iassumption
      iexact Hreg
    unfold Pipeline.Dat.owesAt Pipeline.owesWithin
    icases Howes with ⟨%W, -, Howes⟩; iexists W; iexact Howes

/-! ## The run -/

/-- The program's four segments in order. -/
abbrev segs : List (Pipeline.Seg (pcfgs (F := F)) adm (pdats m) () defs₀ 𝒱₀ L lv) :=
  [ .host (stretch hostOps0 hostOps0_sub hostOps0_fresh (W0 m)),
    .region (reg0 m),
    .host (stretch hostOps1 hostOps1_sub hostOps1_fresh (W2 m)),
    .region (reg1 m) ]

/-- The printed program is the run of these segments: it is the chain of the same four items. -/
theorem main_run (c : Dev nD) : main (F := F) c = Pipeline.Seg.run (segs m) := (main_chain c).trans (by chain_rfl)

set_option backward.isDefEq.respectTransparency.types false in
/-- From any memory, with every semaphore counter at zero, every weakly fair execution of the program terminates
    without a fault, and in the final state every unscoped buffer of every core holds its `W4` contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side c)) (Tₙ := endState m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c),
     (h c _ (mem_uc main_arg13 (by decide))).trans (W4_main_arg13 m c),
     (h c _ (mem_uc main_arg14 (by decide))).trans (W4_main_arg14 m c)⟩) (run_all m ρ)

end Cert.Kernel.Layer

end
-- ==== Proof.Blocks.lean ====
/-
  Tiles and whole arrays. The edge kernel's tile t (of 100) reads rows [8000·t, 8000·t + 8000) of the edge-feature
  and relative-position arrays and writes the same rows of its two result arrays; the node kernel's tile t (of 25)
  reads and writes rows [2000·t, 2000·t + 2000). Every weight matrix and bias row is read whole at every tile. The
  result blocks are disjoint and cover their arrays, so if every tile's body leaves the tile of one function G of
  the whole array's indices, the array ends holding G.
-/
import proofs.«179086_j12515534701202_1_alg».proof.Proof.Layer
import Idealize.ShloMosaic.Lib.ValueIdx

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

theorem tlt0 (t : Fin cfg0.N) : t.val < 100 := lt_of_lt_of_eq t.isLt N_0
theorem tlt1 (t : Fin cfg1.N) : t.val < 25 := lt_of_lt_of_eq t.isLt N_1

/-! ## The edge kernel's operands -/

/-- The printed index maps of kernel 0, decided over its 100 tiles: a row-tiled operand's block at tile `t` is block-row `t`,
    block-column 0; every weight and bias operand is its one block (0, 0) at every tile. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Tile `t`'s block of operand 0 of kernel 0 sits at rows [8000·t, 8000·t + 8000) of its 800000 × 129 array. -/
theorem emb0_0 (t : Fin cfg0.N) (p : Fin 8000) (l : Fin 129) :
    ((cfg0.win 0).blk t).view.emb (ix2 p l) = ix2 (⟨8000 * t.val + p.val, by have := tlt0 t; omega⟩ : Fin 800000) l := by
  have h0 := (idx0 t).1
  have h1 := (idx0 t).2.1
  funext a; apply Fin.ext
  match a with
  | ⟨0, _⟩ => show win0_0.index t (0 : Fin 2) * 8000 + 1 * p.val = 8000 * t.val + p.val; rw [h0]; omega
  | ⟨1, _⟩ => show win0_0.index t (1 : Fin 2) * 129 + 1 * l.val = l.val; rw [h1]; omega
theorem blk0_0_apply (V : (c : Dev nD) → (b : Ref sig .tc) → Buf (Elt F) ((c : Thread nD τ).loc b)) (c : Dev nD) (t : Fin cfg0.N) (p : Fin 8000) (l : Fin 129) :
    blk0 V c 0 t (ix2 p l) = V c main_v36 (ix2 (⟨8000 * t.val + p.val, by have := tlt0 t; omega⟩ : Fin 800000) l) := by
  show V c main_v36 (((cfg0.win 0).blk t).view.emb (ix2 p l)) = _
  rw [emb0_0]

/-- Tile `t`'s block of operand 1 of kernel 0 sits at rows [8000·t, 8000·t + 8000) of its 800000 × 3 array. -/
theorem emb0_1 (t : Fin cfg0.N) (p : Fin 8000) (l : Fin 3) :
    ((cfg0.win 1).blk t).view.emb (ix2 p l) = ix2 (⟨8000 * t.val + p.val, by have := tlt0 t; omega⟩ : Fin 800000) l := by
  have h0 := (idx0 t).2.2.1
  have h1 := (idx0 t).2.2.2.1
  funext a; apply Fin.ext
  match a with
  | ⟨0, _⟩ => show win0_1.index t (0 : Fin 2) * 8000 + 1 * p.val = 8000 * t.val + p.val; rw [h0]; omega
  | ⟨1, _⟩ => show win0_1.index t (1 : Fin 2) * 3 + 1 * l.val = l.val; rw [h1]; omega
theorem blk0_1_apply (V : (c : Dev nD) → (b : Ref sig .tc) → Buf (Elt F) ((c : Thread nD τ).loc b)) (c : Dev nD) (t : Fin cfg0.N) (p : Fin 8000) (l : Fin 3) :
    blk0 V c 1 t (ix2 p l) = V c main_v32 (ix2 (⟨8000 * t.val + p.val, by have := tlt0 t; omega⟩ : Fin 800000) l) := by
  show V c main_v32 (((cfg0.win 1).blk t).view.emb (ix2 p l)) = _
  rw [emb0_1]

/-- Operand 2 of kernel 0 is read whole at every tile. -/
theorem blk0_2_eq (V : (c : Dev nD) → (b : Ref sig .tc) → Buf (Elt F) ((c : Thread nD τ).loc b)) (c : Dev nD) (t : Fin cfg0.N) :
    blk0 V c 2 t = V c main_arg3 := by
  have h0 := (idx0 t).2.2.2.2.1
  have h1 := (idx0 t).2.2.2.2.2.1
  funext y
  show V c main_arg3 (((cfg0.win 2).blk t).view.emb y) = V c main_arg3 y
  refine congrArg _ (funext fun a => Fin.ext ?_)
  match a with
  | ⟨0, _⟩ => show win0_2.index t (0 : Fin 2) * 129 + 1 * (y 0).val = (y 0).val; rw [h0]; omega
  | ⟨1, _⟩ => show win0_2.index t (1 : Fin 2) * 64 + 1 * (y 1).val = (y 1).val; rw [h1]; omega

/-- Operand 3 of kernel 0 is read whole at every tile. -/
theorem blk0_3_eq (V : (c : Dev nD) → (b : Ref sig .tc) → Buf (Elt F) ((c : Thread nD τ).loc b)) (c : Dev nD) (t : Fin cfg0.N) :
    blk0 V c 3 t = V c main_v37 := by
  have h0 := (idx0 t).2.2.2.2.2.2.1
  have h1 := (idx0 t).2.2.2.2.2.2.2.1
  funext y
  show V c main_v37 (((cfg0.win 3).blk t).view.emb y) = V c main_v37 y
  refine congrArg _ (funext fun a => Fin.ext ?_)
  match a with
  | ⟨0, _⟩ => show win0_3.index t (0 : Fin 2) * 1 + 1 * (y 0).val = (y 0).val; rw [h0]; omega
  | ⟨1, _⟩ => show win0_3.index t (1 : Fin 2) * 64 + 1 * (y 1).val = (y 1).val; rw [h1]; omega

/-- Operand 4 of kernel 0 is read whole at every tile. -/
theorem blk0_4_eq (V : (c : Dev nD) → (b : Ref sig .tc) → Buf (Elt F) ((c : Thread nD τ).loc b)) (c : Dev nD) (t : Fin cfg0.N) :
    blk0 V c 4 t = V c main_arg5 := by
  have h0 := (idx0 t).2.2.2.2.2.2.2.2.1
  have h1 := (idx0 t).2.2.2.2.2.2.2.2.2.1
  funext y
  show V c main_arg5 (((cfg0.win 4).blk t).view.emb y) = V c main_arg5 y
  refine congrArg _ (funext fun a => Fin.ext ?_)
  match a with
  | ⟨0, _⟩ => show win0_4.index t (0 : Fin 2) * 64 + 1 * (y 0).val = (y 0).val; rw [h0]; omega
  | ⟨1, _⟩ => show win0_4.index t (1 : Fin 2) * 64 + 1 * (y 1).val = (y 1).val; rw [h1]; omega

/-- Operand 5 of kernel 0 is read whole at every tile. -/
theorem blk0_5_eq (V : (c : Dev nD) → (b : Ref sig .tc) → Buf (Elt F) ((c : Thread nD τ).loc b)) (c : Dev nD) (t : Fin cfg0.N) :
    blk0 V c 5 t = V c main_v38 := by
  have h0 := (idx0 t).2.2.2.2.2.2.2.2.2.2.1
  have h1 := (idx0 t).2.2.2.2.2.2.2.2.2.2.2.1
  funext y
  show V c main_v38 (((cfg0.win 5).blk t).view.emb y) = V c main_v38 y
  refine congrArg _ (funext fun a => Fin.ext ?_)
  match a with
  | ⟨0, _⟩ => show win0_5.index t (0 : Fin 2) * 1 + 1 * (y 0).val = (y 0).val; rw [h0]; omega
  | ⟨1, _⟩ => show win0_5.index t (1 : Fin 2) * 64 + 1 * (y 1).val = (y 1).val; rw [h1]; omega

/-- Operand 6 of kernel 0 is read whole at every tile. -/
theorem blk0_6_eq (V : (c : Dev nD) → (b : Ref sig .tc) → Buf (Elt F) ((c : Thread nD τ).loc b)) (c : Dev nD) (t : Fin cfg0.N) :
    blk0 V c 6 t = V c main_arg7 := by
  have h0 := (idx0 t).2.2.2.2.2.2.2.2.2.2.2.2.1
  have h1 := (idx0 t).2.2.2.2.2.2.2.2.2.2.2.2.2.1
  funext y
  show V c main_arg7 (((cfg0.win 6).blk t).view.emb y) = V c main_arg7 y
  refine congrArg _ (funext fun a => Fin.ext ?_)
  match a with
  | ⟨0, _⟩ => show win0_6.index t (0 : Fin 2) * 64 + 1 * (y 0).val = (y 0).val; rw [h0]; omega
  | ⟨1, _⟩ => show win0_6.index t (1 : Fin 2) * 64 + 1 * (y 1).val = (y 1).val; rw [h1]; omega

/-- Operand 7 of kernel 0 is read whole at every tile. -/
theorem blk0_7_eq (V : (c : Dev nD) → (b : Ref sig .tc) → Buf (Elt F) ((c : Thread nD τ).loc b)) (c : Dev nD) (t : Fin cfg0.N) :
    blk0 V c 7 t = V c main_v39 := by
  have h0 := (idx0 t).2.2.2.2.2.2.2.2.2.2.2.2.2.2.1
  have h1 := (idx0 t).2.2.2.2.2.2.2.2.2.2.2.2.2.2.2.1
  funext y
  show V c main_v39 (((cfg0.win 7).blk t).view.emb y) = V c main_v39 y
  refine congrArg _ (funext fun a => Fin.ext ?_)
  match a with
  | ⟨0, _⟩ => show win0_7.index t (0 : Fin 2) * 1 + 1 * (y 0).val = (y 0).val; rw [h0]; omega
  | ⟨1, _⟩ => show win0_7.index t (1 : Fin 2) * 64 + 1 * (y 1).val = (y 1).val; rw [h1]; omega

/-- Operand 8 of kernel 0 is read whole at every tile. -/
theorem blk0_8_eq (V : (c : Dev nD) → (b : Ref sig .tc) → Buf (Elt F) ((c : Thread nD τ).loc b)) (c : Dev nD) (t : Fin cfg0.N) :
    blk0 V c 8 t = V c main_arg9 := by
  have h0 := (idx0 t).2.2.2.2.2.2.2.2.2.2.2.2.2.2.2.2.1
  have h1 := (idx0 t).2.2.2.2.2.2.2.2.2.2.2.2.2.2.2.2.2.1
  funext y
  show V c main_arg9 (((cfg0.win 8).blk t).view.emb y) = V c main_arg9 y
  refine congrArg _ (funext fun a => Fin.ext ?_)
  match a with
  | ⟨0, _⟩ => show win0_8.index t (0 : Fin 2) * 64 + 1 * (y 0).val = (y 0).val; rw [h0]; omega
  | ⟨1, _⟩ => show win0_8.index t (1 : Fin 2) * 1 + 1 * (y 1).val = (y 1).val; rw [h1]; omega

/-- Operand 9 of kernel 0 is read whole at every tile. -/
theorem blk0_9_eq (V : (c : Dev nD) → (b : Ref sig .tc) → Buf (Elt F) ((c : Thread nD τ).loc b)) (c : Dev nD) (t : Fin cfg0.N) :
    blk0 V c 9 t = V c main_v40 := by
  have h0 := (idx0 t).2.2.2.2.2.2.2.2.2.2.2.2.2.2.2.2.2.2.1
  have h1 := (idx0 t).2.2.2.2.2.2.2.2.2.2.2.2.2.2.2.2.2.2.2.1
  funext y
  show V c main_v40 (((cfg0.win 9).blk t).view.emb y) = V c main_v40 y
  refine congrArg _ (funext fun a => Fin.ext ?_)
  match a with
  | ⟨0, _⟩ => show win0_9.index t (0 : Fin 2) * 1 + 1 * (y 0).val = (y 0).val; rw [h0]; omega
  | ⟨1, _⟩ => show win0_9.index t (1 : Fin 2) * 1 + 1 * (y 1).val = (y 1).val; rw [h1]; omega

/-- Tile `t`'s block of operand 10 of kernel 0 sits at rows [8000·t, 8000·t + 8000) of its 800000 × 64 array. -/
theorem emb0_10 (t : Fin cfg0.N) (p : Fin 8000) (l : Fin 64) :
    ((cfg0.win 10).blk t).view.emb (ix2 p l) = ix2 (⟨8000 * t.val + p.val, by have := tlt0 t; omega⟩ : Fin 800000) l := by
  have h0 := (idx0 t).2.2.2.2.2.2.2.2.2.2.2.2.2.2.2.2.2.2.2.2.1
  have h1 := (idx0 t).2.2.2.2.2.2.2.2.2.2.2.2.2.2.2.2.2.2.2.2.2.1
  funext a; apply Fin.ext
  match a with
  | ⟨0, _⟩ => show win0_10.index t (0 : Fin 2) * 8000 + 1 * p.val = 8000 * t.val + p.val; rw [h0]; omega
  | ⟨1, _⟩ => show win0_10.index t (1 : Fin 2) * 64 + 1 * l.val = l.val; rw [h1]; omega

/-- Tile `t`'s block of operand 11 of kernel 0 sits at rows [8000·t, 8000·t + 8000) of its 800000 × 3 array. -/
theorem emb0_11 (t : Fin cfg0.N) (p : Fin 8000) (l : Fin 3) :
    ((cfg0.win 11).blk t).view.emb (ix2 p l) = ix2 (⟨8000 * t.val + p.val, by have := tlt0 t; omega⟩ : Fin 800000) l := by
  have h0 := (idx0 t).2.2.2.2.2.2.2.2.2.2.2.2.2.2.2.2.2.2.2.2.2.2.1
  have h1 := (idx0 t).2.2.2.2.2.2.2.2.2.2.2.2.2.2.2.2.2.2.2.2.2.2.2
  funext a; apply Fin.ext
  match a with
  | ⟨0, _⟩ => show win0_11.index t (0 : Fin 2) * 8000 + 1 * p.val = 8000 * t.val + p.val; rw [h0]; omega
  | ⟨1, _⟩ => show win0_11.index t (1 : Fin 2) * 3 + 1 * l.val = l.val; rw [h1]; omega

/-- An index of result array main_v41_0 is in tile `t`'s block iff each coordinate is in the block's range on its axis. -/
theorem mem_blk0_10 (t : Fin cfg0.N) (i : S800000x64.Idx) :
    i ∈ ((cfg0.win 10).blk t).view.set ↔ ∀ a : Fin 2, win0_10.index t a * S8000x64.size a ≤ (i a).val ∧ (i a).val < win0_10.index t a * S8000x64.size a + S8000x64.size a := by
  show i ∈ ((View.whole main_v41_0).slice (win0_10.rect t)).set ↔ _
  rw [View.set_slice_whole, Rect.mem_set_unit]
  exact Iff.rfl

/-- Every row of main_v41_0 lies in the block of the tile that row falls in: the blocks cover the array. -/
theorem cover0_10 (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  let t : Fin cfg0.N := ⟨(i 0).val / 8000, by rw [show cfg0.N = 100 from N_0]; omega⟩
  have h0 := (idx0 t).2.2.2.2.2.2.2.2.2.2.2.2.2.2.2.2.2.2.2.2.1
  have h1 := (idx0 t).2.2.2.2.2.2.2.2.2.2.2.2.2.2.2.2.2.2.2.2.2.1
  refine ⟨t, flush0_10 t, ?_⟩
  rw [mem_blk0_10]
  intro a
  match a with
  | ⟨0, _⟩ =>
    show win0_10.index t (0 : Fin 2) * 8000 ≤ (i 0).val ∧ (i 0).val < win0_10.index t (0 : Fin 2) * 8000 + 8000
    rw [h0]; show (i 0).val / 8000 * 8000 ≤ (i 0).val ∧ (i 0).val < (i 0).val / 8000 * 8000 + 8000; omega
  | ⟨1, _⟩ =>
    show win0_10.index t (1 : Fin 2) * 64 ≤ (i 1).val ∧ (i 1).val < win0_10.index t (1 : Fin 2) * 64 + 64
    rw [h1]; omega

/-- If at every tile the body leaves in output buffer 10 the tile of one function `G` of the whole array's
    indices, the array ends holding `G`. -/
theorem arr0_10 (V : (c : Dev nD) → (b : Ref sig .tc) → Buf (Elt F) ((c : Thread nD τ).loc b)) (c : Dev nD)
    (G : S800000x64.Idx → Elt F .f32)
    (hG : ∀ (t : Fin cfg0.N) (p : Fin 8000) (l : Fin 64),
      (msgTile (blk0 V c 0 t) (blk0 V c 2 t) (blk0 V c 3 t) (blk0 V c 4 t) (blk0 V c 5 t)) (ix2 p l) = G (ix2 (⟨8000 * t.val + p.val, by have := tlt0 t; omega⟩ : Fin 800000) l)) :
    (dat0 V c).arrAt 10 cfg0.N = G := by
  refine (dat0 V c).arrAt_eq_of_cover 10 G (fun t _ => ?_) cover0_10
  show (cfg0.win 10).cut (grid0.coords t) ((dat0 V c).after 10 t) = _
  rw [after0_10]
  funext j
  obtain ⟨p, l, rfl⟩ : ∃ (p : Fin 8000) (l : Fin 64), j = ix2 p l := ⟨j 0, j 1, eq_ix2 j⟩
  show _ = G (((cfg0.win 10).blk t).view.emb (ix2 p l))
  rw [emb0_10]
  exact hG t p l

/-- An index of result array main_v41_1 is in tile `t`'s block iff each coordinate is in the block's range on its axis. -/
theorem mem_blk0_11 (t : Fin cfg0.N) (i : S800000x3.Idx) :
    i ∈ ((cfg0.win 11).blk t).view.set ↔ ∀ a : Fin 2, win0_11.index t a * S8000x3.size a ≤ (i a).val ∧ (i a).val < win0_11.index t a * S8000x3.size a + S8000x3.size a := by
  show i ∈ ((View.whole main_v41_1).slice (win0_11.rect t)).set ↔ _
  rw [View.set_slice_whole, Rect.mem_set_unit]
  exact Iff.rfl

/-- Every row of main_v41_1 lies in the block of the tile that row falls in: the blocks cover the array. -/
theorem cover0_11 (i : S800000x3.Idx) :
    ∃ t : Fin cfg0.N, (cfg0.win 11).flush t = true ∧ i ∈ ((cfg0.win 11).blk t).view.set := by
  have hi0 : (i 0).val < 800000 := (i 0).isLt
  have hi1 : (i 1).val < 3 := (i 1).isLt
  let t : Fin cfg0.N := ⟨(i 0).val / 8000, by rw [show cfg0.N = 100 from N_0]; omega⟩
  have h0 := (idx0 t).2.2.2.2.2.2.2.2.2.2.2.2.2.2.2.2.2.2.2.2.2.2.1
  have h1 := (idx0 t).2.2.2.2.2.2.2.2.2.2.2.2.2.2.2.2.2.2.2.2.2.2.2
  refine ⟨t, flush0_11 t, ?_⟩
  rw [mem_blk0_11]
  intro a
  match a with
  | ⟨0, _⟩ =>
    show win0_11.index t (0 : Fin 2) * 8000 ≤ (i 0).val ∧ (i 0).val < win0_11.index t (0 : Fin 2) * 8000 + 8000
    rw [h0]; show (i 0).val / 8000 * 8000 ≤ (i 0).val ∧ (i 0).val < (i 0).val / 8000 * 8000 + 8000; omega
  | ⟨1, _⟩ =>
    show win0_11.index t (1 : Fin 2) * 3 ≤ (i 1).val ∧ (i 1).val < win0_11.index t (1 : Fin 2) * 3 + 3
    rw [h1]; omega

/-- If at every tile the body leaves in output buffer 11 the tile of one function `G` of the whole array's
    indices, the array ends holding `G`. -/
theorem arr0_11 (V : (c : Dev nD) → (b : Ref sig .tc) → Buf (Elt F) ((c : Thread nD τ).loc b)) (c : Dev nD)
    (G : S800000x3.Idx → Elt F .f32)
    (hG : ∀ (t : Fin cfg0.N) (p : Fin 8000) (l : Fin 3),
      (coordTile (blk0 V c 0 t) (blk0 V c 1 t) (blk0 V c 2 t) (blk0 V c 3 t) (blk0 V c 4 t) (blk0 V c 5 t)
        (blk0 V c 6 t) (blk0 V c 7 t) (blk0 V c 8 t) (blk0 V c 9 t)) (ix2 p l) = G (ix2 (⟨8000 * t.val + p.val, by have := tlt0 t; omega⟩ : Fin 800000) l)) :
    (dat0 V c).arrAt 11 cfg0.N = G := by
  refine (dat0 V c).arrAt_eq_of_cover 11 G (fun t _ => ?_) cover0_11
  show (cfg0.win 11).cut (grid0.coords t) ((dat0 V c).after 11 t) = _
  rw [after0_11]
  funext j
  obtain ⟨p, l, rfl⟩ : ∃ (p : Fin 8000) (l : Fin 3), j = ix2 p l := ⟨j 0, j 1, eq_ix2 j⟩
  show _ = G (((cfg0.win 11).blk t).view.emb (ix2 p l))
  rw [emb0_11]
  exact hG t p l

/-! ## The node kernel's operands -/

/-- The printed index maps of kernel 1, decided over its 25 tiles: a row-tiled operand's block at tile `t` is block-row `t`,
    block-column 0; every weight and bias operand is its one block (0, 0) at every tile. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile `t`'s block of operand 0 of kernel 1 sits at rows [2000·t, 2000·t + 2000) of its 50000 × 128 array. -/
theorem emb1_0 (t : Fin cfg1.N) (p : Fin 2000) (l : Fin 128) :
    ((cfg1.win 0).blk t).view.emb (ix2 p l) = ix2 (⟨2000 * t.val + p.val, by have := tlt1 t; omega⟩ : Fin 50000) l := by
  have h0 := (idx1 t).1
  have h1 := (idx1 t).2.1
  funext a; apply Fin.ext
  match a with
  | ⟨0, _⟩ => show win1_0.index t (0 : Fin 2) * 2000 + 1 * p.val = 2000 * t.val + p.val; rw [h0]; omega
  | ⟨1, _⟩ => show win1_0.index t (1 : Fin 2) * 128 + 1 * l.val = l.val; rw [h1]; omega
theorem blk1_0_apply (V : (c : Dev nD) → (b : Ref sig .tc) → Buf (Elt F) ((c : Thread nD τ).loc b)) (c : Dev nD) (t : Fin cfg1.N) (p : Fin 2000) (l : Fin 128) :
    blk1 V c 0 t (ix2 p l) = V c main_v49 (ix2 (⟨2000 * t.val + p.val, by have := tlt1 t; omega⟩ : Fin 50000) l) := by
  show V c main_v49 (((cfg1.win 0).blk t).view.emb (ix2 p l)) = _
  rw [emb1_0]

/-- Operand 1 of kernel 1 is read whole at every tile. -/
theorem blk1_1_eq (V : (c : Dev nD) → (b : Ref sig .tc) → Buf (Elt F) ((c : Thread nD τ).loc b)) (c : Dev nD) (t : Fin cfg1.N) :
    blk1 V c 1 t = V c main_arg11 := by
  have h0 := (idx1 t).2.2.1
  have h1 := (idx1 t).2.2.2.1
  funext y
  show V c main_arg11 (((cfg1.win 1).blk t).view.emb y) = V c main_arg11 y
  refine congrArg _ (funext fun a => Fin.ext ?_)
  match a with
  | ⟨0, _⟩ => show win1_1.index t (0 : Fin 2) * 128 + 1 * (y 0).val = (y 0).val; rw [h0]; omega
  | ⟨1, _⟩ => show win1_1.index t (1 : Fin 2) * 64 + 1 * (y 1).val = (y 1).val; rw [h1]; omega

/-- Operand 2 of kernel 1 is read whole at every tile. -/
theorem blk1_2_eq (V : (c : Dev nD) → (b : Ref sig .tc) → Buf (Elt F) ((c : Thread nD τ).loc b)) (c : Dev nD) (t : Fin cfg1.N) :
    blk1 V c 2 t = V c main_v50 := by
  have h0 := (idx1 t).2.2.2.2.1
  have h1 := (idx1 t).2.2.2.2.2.1
  funext y
  show V c main_v50 (((cfg1.win 2).blk t).view.emb y) = V c main_v50 y
  refine congrArg _ (funext fun a => Fin.ext ?_)
  match a with
  | ⟨0, _⟩ => show win1_2.index t (0 : Fin 2) * 1 + 1 * (y 0).val = (y 0).val; rw [h0]; omega
  | ⟨1, _⟩ => show win1_2.index t (1 : Fin 2) * 64 + 1 * (y 1).val = (y 1).val; rw [h1]; omega

/-- Operand 3 of kernel 1 is read whole at every tile. -/
theorem blk1_3_eq (V : (c : Dev nD) → (b : Ref sig .tc) → Buf (Elt F) ((c : Thread nD τ).loc b)) (c : Dev nD) (t : Fin cfg1.N) :
    blk1 V c 3 t = V c main_arg13 := by
  have h0 := (idx1 t).2.2.2.2.2.2.1
  have h1 := (idx1 t).2.2.2.2.2.2.2.1
  funext y
  show V c main_arg13 (((cfg1.win 3).blk t).view.emb y) = V c main_arg13 y
  refine congrArg _ (funext fun a => Fin.ext ?_)
  match a with
  | ⟨0, _⟩ => show win1_3.index t (0 : Fin 2) * 64 + 1 * (y 0).val = (y 0).val; rw [h0]; omega
  | ⟨1, _⟩ => show win1_3.index t (1 : Fin 2) * 64 + 1 * (y 1).val = (y 1).val; rw [h1]; omega

/-- Operand 4 of kernel 1 is read whole at every tile. -/
theorem blk1_4_eq (V : (c : Dev nD) → (b : Ref sig .tc) → Buf (Elt F) ((c : Thread nD τ).loc b)) (c : Dev nD) (t : Fin cfg1.N) :
    blk1 V c 4 t = V c main_v51 := by
  have h0 := (idx1 t).2.2.2.2.2.2.2.2.1
  have h1 := (idx1 t).2.2.2.2.2.2.2.2.2.1
  funext y
  show V c main_v51 (((cfg1.win 4).blk t).view.emb y) = V c main_v51 y
  refine congrArg _ (funext fun a => Fin.ext ?_)
  match a with
  | ⟨0, _⟩ => show win1_4.index t (0 : Fin 2) * 1 + 1 * (y 0).val = (y 0).val; rw [h0]; omega
  | ⟨1, _⟩ => show win1_4.index t (1 : Fin 2) * 64 + 1 * (y 1).val = (y 1).val; rw [h1]; omega

/-- Tile `t`'s block of operand 5 of kernel 1 sits at rows [2000·t, 2000·t + 2000) of its 50000 × 64 array. -/
theorem emb1_5 (t : Fin cfg1.N) (p : Fin 2000) (l : Fin 64) :
    ((cfg1.win 5).blk t).view.emb (ix2 p l) = ix2 (⟨2000 * t.val + p.val, by have := tlt1 t; omega⟩ : Fin 50000) l := by
  have h0 := (idx1 t).2.2.2.2.2.2.2.2.2.2.1
  have h1 := (idx1 t).2.2.2.2.2.2.2.2.2.2.2
  funext a; apply Fin.ext
  match a with
  | ⟨0, _⟩ => show win1_5.index t (0 : Fin 2) * 2000 + 1 * p.val = 2000 * t.val + p.val; rw [h0]; omega
  | ⟨1, _⟩ => show win1_5.index t (1 : Fin 2) * 64 + 1 * l.val = l.val; rw [h1]; omega

/-- An index of result array main_v52 is in tile `t`'s block iff each coordinate is in the block's range on its axis. -/
theorem mem_blk1_5 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v52).slice (win1_5.rect t)).set ↔ _
  rw [View.set_slice_whole, Rect.mem_set_unit]
  exact Iff.rfl

/-- Every row of main_v52 lies in the block of the tile that row falls in: the blocks cover the array. -/
theorem cover1_5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 2000, by rw [show cfg1.N = 25 from N_1]; omega⟩
  have h0 := (idx1 t).2.2.2.2.2.2.2.2.2.2.1
  have h1 := (idx1 t).2.2.2.2.2.2.2.2.2.2.2
  refine ⟨t, flush1_5 t, ?_⟩
  rw [mem_blk1_5]
  intro a
  match a with
  | ⟨0, _⟩ =>
    show win1_5.index t (0 : Fin 2) * 2000 ≤ (i 0).val ∧ (i 0).val < win1_5.index t (0 : Fin 2) * 2000 + 2000
    rw [h0]; show (i 0).val / 2000 * 2000 ≤ (i 0).val ∧ (i 0).val < (i 0).val / 2000 * 2000 + 2000; omega
  | ⟨1, _⟩ =>
    show win1_5.index t (1 : Fin 2) * 64 ≤ (i 1).val ∧ (i 1).val < win1_5.index t (1 : Fin 2) * 64 + 64
    rw [h1]; omega

/-- If at every tile the body leaves in output buffer 5 the tile of one function `G` of the whole array's
    indices, the array ends holding `G`. -/
theorem arr1_5 (V : (c : Dev nD) → (b : Ref sig .tc) → Buf (Elt F) ((c : Thread nD τ).loc b)) (c : Dev nD)
    (G : S50000x64.Idx → Elt F .f32)
    (hG : ∀ (t : Fin cfg1.N) (p : Fin 2000) (l : Fin 64),
      (nodeTile (blk1 V c 0 t) (blk1 V c 1 t) (blk1 V c 2 t) (blk1 V c 3 t) (blk1 V c 4 t)) (ix2 p l) = G (ix2 (⟨2000 * t.val + p.val, by have := tlt1 t; omega⟩ : Fin 50000) l)) :
    (dat1 V c).arrAt 5 cfg1.N = G := by
  refine (dat1 V c).arrAt_eq_of_cover 5 G (fun t _ => ?_) cover1_5
  show (cfg1.win 5).cut (grid1.coords t) ((dat1 V c).after 5 t) = _
  rw [after1_5]
  funext j
  obtain ⟨p, l, rfl⟩ : ∃ (p : Fin 2000) (l : Fin 64), j = ix2 p l := ⟨j 0, j 1, eq_ix2 j⟩
  show _ = G (((cfg1.win 5).blk t).view.emb (ix2 p l))
  rw [emb1_5]
  exact hG t p l

end Cert.KernelIdeal.Layer

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«179086_j12515534701202_1_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibTileSilu.lean ====
/-
  Row tiles through a silu. On the extended reals silu z = z · (1 / (1 + e^(−z))), with the conventions of the
  quotient and of the exponential at the infinities. A kernel spells it  z · logistic z  in one vector operation and
  one product; a host program spells it out: negate, exponentiate, add the constant 1, divide the constant 1 by the
  sum, multiply by z. Both are the same function entry by entry (the f32 pattern 0x3F800000 is the number 1), so a
  tile's silu is the tile of the whole array's silu, whichever way either side is spelt.
-/
import proofs.«179086_j12515534701202_1_alg».proof.Proof.LibTileMore
import Idealize.ShloMosaic.Lib.IdealHost

noncomputable section

namespace Cert.Tile

open Idealize.ShloMosaic Idealize.ShloMosaic.ValueIdx

/-- silu on the extended reals: the argument times its logistic. -/
def silu (z : EReal) : EReal := z * Ideal.logistic z

variable {T M : Nat} {r0 : Nat} {hr : r0 + T ≤ M}

/-- A kernel's  z · logistic z  on a tile is the tile of the whole array's silu. -/
theorem vSilu {C : Nat} {φ : FTy} {x : (⟨2, ![T, C]⟩ : Shape).Idx → EReal} {X : (⟨2, ![M, C]⟩ : Shape).Idx → EReal}
    (hx : IsTile r0 hr x X) :
    IsTile r0 hr (mulf (F := Ideal) (φ := φ) x (logistic (F := Ideal) (φ := φ) x)) (fun i => silu (X i)) :=
  map silu hx

/-- The constant 1 broadcast over any shape reads 1 everywhere. -/
theorem one_apply {s : Shape} (g : (⟨0, ![]⟩ : Shape).BroadcastsInDim s ![]) (i : s.Idx) :
    broadcastInDim s ![] g (constant (F := Ideal) ⟨0, ![]⟩ .f32 0x3F800000#32) i = (1 : EReal) :=
  (broadcastInDim_apply _ g (constant (F := Ideal) ⟨0, ![]⟩ .f32 0x3F800000#32) i ix0 fun a => a.elim0).trans
    (show Ideal.ofBits .f32 0x3F800000#32 = 1 from Ideal.ofBits_one_f32)

/-- The host's spelling of silu, read at an index: z · (1 / (1 + e^(−z))) with both ones the broadcast constant. -/
theorem hostSilu_apply {s : Shape} (g g' : (⟨0, ![]⟩ : Shape).BroadcastsInDim s ![]) (X : s.Idx → EReal) (i : s.Idx) :
    mulf (F := Ideal) (φ := .f32) X
        (Host.divf (F := Ideal) (φ := .f32) (broadcastInDim s ![] g (constant (F := Ideal) ⟨0, ![]⟩ .f32 0x3F800000#32))
          (addf (F := Ideal) (φ := .f32) (broadcastInDim s ![] g' (constant (F := Ideal) ⟨0, ![]⟩ .f32 0x3F800000#32))
            (Host.exp (F := Ideal) (φ := .f32) (Host.negf (F := Ideal) (φ := .f32) X)))) i
      = silu (X i) := by
  show X i * Ideal.div (broadcastInDim s ![] g (constant (F := Ideal) ⟨0, ![]⟩ .f32 0x3F800000#32) i)
      (broadcastInDim s ![] g' (constant (F := Ideal) ⟨0, ![]⟩ .f32 0x3F800000#32) i + Ideal.exp (-(X i)))
    = X i * Ideal.div 1 (1 + Ideal.exp (-(X i)))
  simp only [one_apply]

/-! ## A dense layer, and a dense layer followed by silu -/

section Dense
variable {K N : Nat} {φ₁ φ₂ ψ₁ ψ₂ : FTy}

/-- A tile's product with a weight matrix into zero plus a bias row repeated down the tile, against the whole
    array's product (the host's `dot_general`) plus the bias broadcast over all rows: row r0 + p of the whole
    layer reads only row r0 + p of its input. -/
theorem dense {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N)
    (D : DotDims ⟨2, ![M, K]⟩ ⟨2, ![K, N]⟩ ⟨2, ![M, N]⟩) (hD : D = DotDims.plain M K N)
    (prec prec' : Option ContractPrecision)
    (W : (⟨2, ![K, N]⟩ : Shape).Idx → EReal) (b : (⟨1, ![N]⟩ : Shape).Idx → EReal)
    (h1 : (⟨1, ![N]⟩ : Shape).ShapeCasts ⟨2, ![1, N]⟩) (h2 : (⟨2, ![1, N]⟩ : Shape).Broadcasts ⟨2, ![T, N]⟩)
    (g1 : (⟨1, ![N]⟩ : Shape).BroadcastsInDim ⟨2, ![1, N]⟩ ![1])
    (g2 : (⟨2, ![1, N]⟩ : Shape).BroadcastsInDim ⟨2, ![M, N]⟩ ![0, 1])
    (hx : IsTile r0 hr x X) :
    IsTile r0 hr
      (addf (F := Ideal) (φ := .f32)
        (Idealize.ShloMosaic.matmul (F := Ideal) (φ₁ := φ₁) (φ₂ := φ₂) d prec x W (constant ⟨2, ![T, N]⟩ .f32 0x00000000#32))
        (broadcastTo ⟨2, ![T, N]⟩ (shapeCast ⟨2, ![1, N]⟩ b h1) h2))
      (addf (F := Ideal) (φ := .f32) (Host.dotGeneral (F := Ideal) (φ₁ := ψ₁) (φ₂ := ψ₂) D prec' X W)
        (broadcastInDim ⟨2, ![M, N]⟩ ![0, 1] g2 (broadcastInDim ⟨2, ![1, N]⟩ ![1] g1 b))) := by
  subst hD
  exact vAdd (vMatmul d hd prec W hx) (bias b h1 h2 g1 g2)

/-- The same layer followed by silu, the tile's in the kernel's spelling and the whole array's in the host's. -/
theorem siluDense {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N)
    (D : DotDims ⟨2, ![M, K]⟩ ⟨2, ![K, N]⟩ ⟨2, ![M, N]⟩) (hD : D = DotDims.plain M K N)
    (prec prec' : Option ContractPrecision)
    (W : (⟨2, ![K, N]⟩ : Shape).Idx → EReal) (b : (⟨1, ![N]⟩ : Shape).Idx → EReal)
    (h1 : (⟨1, ![N]⟩ : Shape).ShapeCasts ⟨2, ![1, N]⟩) (h2 : (⟨2, ![1, N]⟩ : Shape).Broadcasts ⟨2, ![T, N]⟩)
    (g1 : (⟨1, ![N]⟩ : Shape).BroadcastsInDim ⟨2, ![1, N]⟩ ![1])
    (g2 : (⟨2, ![1, N]⟩ : Shape).BroadcastsInDim ⟨2, ![M, N]⟩ ![0, 1])
    (gs gs' : (⟨0, ![]⟩ : Shape).BroadcastsInDim ⟨2, ![M, N]⟩ ![])
    (hx : IsTile r0 hr x X) :
    IsTile r0 hr
      (mulf (F := Ideal) (φ := .f32)
        (addf (F := Ideal) (φ := .f32)
          (Idealize.ShloMosaic.matmul (F := Ideal) (φ₁ := φ₁) (φ₂ := φ₂) d prec x W (constant ⟨2, ![T, N]⟩ .f32 0x00000000#32))
          (broadcastTo ⟨2, ![T, N]⟩ (shapeCast ⟨2, ![1, N]⟩ b h1) h2))
        (logistic (F := Ideal) (φ := .f32)
          (addf (F := Ideal) (φ := .f32)
            (Idealize.ShloMosaic.matmul (F := Ideal) (φ₁ := φ₁) (φ₂ := φ₂) d prec x W (constant ⟨2, ![T, N]⟩ .f32 0x00000000#32))
            (broadcastTo ⟨2, ![T, N]⟩ (shapeCast ⟨2, ![1, N]⟩ b h1) h2))))
      (mulf (F := Ideal) (φ := .f32)
        (addf (F := Ideal) (φ := .f32) (Host.dotGeneral (F := Ideal) (φ₁ := ψ₁) (φ₂ := ψ₂) D prec' X W)
          (broadcastInDim ⟨2, ![M, N]⟩ ![0, 1] g2 (broadcastInDim ⟨2, ![1, N]⟩ ![1] g1 b)))
        (Host.divf (F := Ideal) (φ := .f32) (broadcastInDim ⟨2, ![M, N]⟩ ![] gs (constant (F := Ideal) ⟨0, ![]⟩ .f32 0x3F800000#32))
          (addf (F := Ideal) (φ := .f32) (broadcastInDim ⟨2, ![M, N]⟩ ![] gs' (constant (F := Ideal) ⟨0, ![]⟩ .f32 0x3F800000#32))
            (Host.exp (F := Ideal) (φ := .f32) (Host.negf (F := Ideal) (φ := .f32)
              (addf (F := Ideal) (φ := .f32) (Host.dotGeneral (F := Ideal) (φ₁ := ψ₁) (φ₂ := ψ₂) D prec' X W)
                (broadcastInDim ⟨2, ![M, N]⟩ ![0, 1] g2 (broadcastInDim ⟨2, ![1, N]⟩ ![1] g1 b)))))))) := by
  intro p l
  refine Eq.trans ?_ (hostSilu_apply gs gs' _ _).symm
  exact vSilu (φ := .f32) (dense (φ₁ := φ₁) (φ₂ := φ₂) (ψ₁ := ψ₁) (ψ₂ := ψ₂) d hd D hD prec prec' W b h1 h2 g1 g2 hx) p l

end Dense

/-! ## The host's spelling of the layers, over the plain M × K by K × N product -/

/-- A bias of C entries broadcasts along axis 1 to a 1 × C row. -/
theorem bidVec (C : Nat) : (⟨1, ![C]⟩ : Shape).BroadcastsInDim ⟨2, ![1, C]⟩ ![1] :=
  ⟨fun a b _ => Subsingleton.elim a b, fun a => by match a with | ⟨0, _⟩ => exact Or.inr rfl⟩

/-- X · W + b on whole arrays, in the host's operations. -/
def hostDense (M K N : Nat) (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  addf (F := Ideal) (φ := .f32) (Host.dotGeneral (F := Ideal) (φ₁ := .f32) (φ₂ := .f32) (DotDims.plain M K N) none X W)
    (broadcastInDim ⟨2, ![M, N]⟩ ![0, 1] (bidRow M N) (broadcastInDim ⟨2, ![1, N]⟩ ![1] (bidVec N) b))

/-- silu of a whole array, in the host's operations. -/
def hostSilu (M N : Nat) (Z : (⟨2, ![M, N]⟩ : Shape).Idx → EReal) : (⟨2, ![M, N]⟩ : Shape).Idx → EReal :=
  mulf (F := Ideal) (φ := .f32) Z
    (Host.divf (F := Ideal) (φ := .f32) (broadcastInDim ⟨2, ![M, N]⟩ ![] (bidScalar M N) (constant (F := Ideal) ⟨0, ![]⟩ .f32 0x3F800000#32))
      (addf (F := Ideal) (φ := .f32) (broadcastInDim ⟨2, ![M, N]⟩ ![] (bidScalar M N) (constant (F := Ideal) ⟨0, ![]⟩ .f32 0x3F800000#32))
        (Host.exp (F := Ideal) (φ := .f32) (Host.negf (F := Ideal) (φ := .f32) Z))))

section DenseNamed
variable {K N : Nat} {φ₁ φ₂ : FTy} {x : (⟨2, ![T, K]⟩ : Shape).Idx → EReal} {X : (⟨2, ![M, K]⟩ : Shape).Idx → EReal}

/-- A tile's dense layer is the tile of the whole array's. -/
theorem dense_named (d : DotDims ⟨2, ![T, K]⟩ ⟨2, ![K, N]⟩ ⟨2, ![T, N]⟩) (hd : d = DotDims.plain T K N) (prec : Option ContractPrecision)
    (W : (⟨2, ![K, N]⟩ : Shape).Idx → EReal) (b : (⟨1, ![N]⟩ : Shape).Idx → EReal)
    (h1 : (⟨1, ![N]⟩ : Shape).ShapeCasts ⟨2, ![1, N]⟩) (h2 : (⟨2, ![1, N]⟩ : Shape).Broadcasts ⟨2, ![T, N]⟩)
    (hx : IsTile r0 hr x X) :
    IsTile r0 hr
      (addf (F := Ideal) (φ := .f32)
        (Idealize.ShloMosaic.matmul (F := Ideal) (φ₁ := φ₁) (φ₂ := φ₂) d prec x W (constant ⟨2, ![T, N]⟩ .f32 0x00000000#32))
        (broadcastTo ⟨2, ![T, N]⟩ (shapeCast ⟨2, ![1, N]⟩ b h1) h2))
      (hostDense M K N X W b) :=
  dense (ψ₁ := .f32) (ψ₂ := .f32) d hd (DotDims.plain M K N) rfl prec none W b h1 h2 (bidVec N) (bidRow M N) hx

/-- A tile's dense layer followed by silu is the tile of the whole array's. -/
theorem siluDense_named (d : DotDims ⟨2, ![T, K]⟩ ⟨2, ![K, N]⟩ ⟨2, ![T, N]⟩) (hd : d = DotDims.plain T K N) (prec : Option ContractPrecision)
    (W : (⟨2, ![K, N]⟩ : Shape).Idx → EReal) (b : (⟨1, ![N]⟩ : Shape).Idx → EReal)
    (h1 : (⟨1, ![N]⟩ : Shape).ShapeCasts ⟨2, ![1, N]⟩) (h2 : (⟨2, ![1, N]⟩ : Shape).Broadcasts ⟨2, ![T, N]⟩)
    (hx : IsTile r0 hr x X) :
    IsTile r0 hr
      (mulf (F := Ideal) (φ := .f32)
        (addf (F := Ideal) (φ := .f32)
          (Idealize.ShloMosaic.matmul (F := Ideal) (φ₁ := φ₁) (φ₂ := φ₂) d prec x W (constant ⟨2, ![T, N]⟩ .f32 0x00000000#32))
          (broadcastTo ⟨2, ![T, N]⟩ (shapeCast ⟨2, ![1, N]⟩ b h1) h2))
        (logistic (F := Ideal) (φ := .f32)
          (addf (F := Ideal) (φ := .f32)
            (Idealize.ShloMosaic.matmul (F := Ideal) (φ₁ := φ₁) (φ₂ := φ₂) d prec x W (constant ⟨2, ![T, N]⟩ .f32 0x00000000#32))
            (broadcastTo ⟨2, ![T, N]⟩ (shapeCast ⟨2, ![1, N]⟩ b h1) h2))))
      (hostSilu M N (hostDense M K N X W b)) :=
  siluDense (ψ₁ := .f32) (ψ₂ := .f32) d hd (DotDims.plain M K N) rfl prec none W b h1 h2 (bidVec N) (bidRow M N) (bidScalar M N) (bidScalar M N) hx

end DenseNamed

end Cert.Tile

end
-- ==== Proof.EdgeTile.lean ====
/-
  The layers on whole arrays, and the tiles' payloads as their tiles.

  Edge messages:              msg = silu(silu(X·We1 + be1)·We2 + be2)             (800000 × 64)
  coordinate weight:          cw  = silu(msg·Wc1 + bc1)·Wc2 + bc2                  (800000 × 1)
  coordinate contributions:   rel · cw, the weight repeated across the 3 columns   (800000 × 3)
  node outputs:               silu(Z·Wn1 + bn1)·Wn2 + bn2                          (50000 × 64)

  Row r of each depends only on row r of X, rel or Z: every product contracts over columns, every bias is a row
  repeated down the rows, silu acts entry by entry. So what a tile's body computes from rows [r0, r0 + T) of its
  inputs is rows [r0, r0 + T) of the whole function. The bias blocks reach the body as 1 × C rows, which are the
  1-D biases viewed 1 × C.
-/
import proofs.«179086_j12515534701202_1_alg».proof.Proof.Gen.KernelIdeal.Skeleton
import proofs.«179086_j12515534701202_1_alg».proof.Proof.LibTileSilu

noncomputable section

namespace Cert.KernelIdeal.Layer

open Idealize.ShloMosaic Idealize.ShloMosaic.ValueIdx Cert.Tile
open Cert.KernelIdeal Cert.KernelIdeal.Gen

/-! ## The whole-array functions, in the host's operations -/

def msgWhole (X : S800000x129.Idx → EReal) (We1 : S129x64.Idx → EReal) (be1 : S64.Idx → EReal)
    (We2 : S64x64.Idx → EReal) (be2 : S64.Idx → EReal) : S800000x64.Idx → EReal :=
  hostSilu 800000 64 (hostDense 800000 64 64 (hostSilu 800000 64 (hostDense 800000 129 64 X We1 be1)) We2 be2)

def cwWhole (X : S800000x129.Idx → EReal) (We1 : S129x64.Idx → EReal) (be1 : S64.Idx → EReal)
    (We2 : S64x64.Idx → EReal) (be2 : S64.Idx → EReal) (Wc1 : S64x64.Idx → EReal) (bc1 : S64.Idx → EReal)
    (Wc2 : S64x1.Idx → EReal) (bc2 : S1.Idx → EReal) : S800000x1.Idx → EReal :=
  hostDense 800000 64 1 (hostSilu 800000 64 (hostDense 800000 64 64 (msgWhole X We1 be1 We2 be2) Wc1 bc1)) Wc2 bc2

def coordWhole (rel : S800000x3.Idx → EReal) (cw : S800000x1.Idx → EReal) : S800000x3.Idx → EReal :=
  mulf (F := Ideal) (φ := .f32) rel (broadcastInDim S800000x3 ![0, 1] (bidCol 800000 3) cw)

def nodeWhole (Z : S50000x128.Idx → EReal) (Wn1 : S128x64.Idx → EReal) (bn1 : S64.Idx → EReal)
    (Wn2 : S64x64.Idx → EReal) (bn2 : S64.Idx → EReal) : S50000x64.Idx → EReal :=
  hostDense 50000 64 64 (hostSilu 50000 64 (hostDense 50000 128 64 Z Wn1 bn1)) Wn2 bn2

/-! ## The payloads on tiles -/

section Edge
variable {r0 : Nat} {hr : r0 + 8000 ≤ 800000}

/-- The edge-message payload of a tile of X is the tile of the whole edge messages. -/
theorem msg_isTile {x0 : S8000x129.Idx → EReal} {X : S800000x129.Idx → EReal} (hx : IsTile r0 hr x0 X)
    (We1 : S129x64.Idx → EReal) (be1 : S64.Idx → EReal) (We2 : S64x64.Idx → EReal) (be2 : S64.Idx → EReal)
    (hb : S64.ShapeCasts S1x64) :
    IsTile r0 hr (k0_pay2 (F := Ideal) x0 We1 (shapeCast S1x64 be1 hb) We2 (shapeCast S1x64 be2 hb))
      (msgWhole X We1 be1 We2 be2) := by
  unfold k0_pay2 msgWhole
  simp only [shapeCast_self]
  exact siluDense_named _ rfl none _ be2 hb _ (vTrunc .bf16 _ (siluDense_named _ rfl none _ be1 hb _ (vTrunc .bf16 _ hx)))

/-- The coordinate-weight payload (before its bias) followed by the bias and the scaling of the tile of relative
    positions is the tile of the whole coordinate contributions. -/
theorem coord_isTile {x0 : S8000x129.Idx → EReal} {X : S800000x129.Idx → EReal} (hx : IsTile r0 hr x0 X)
    {x1 : S8000x3.Idx → EReal} {Rel : S800000x3.Idx → EReal} (hrel : IsTile r0 hr x1 Rel)
    (We1 : S129x64.Idx → EReal) (be1 : S64.Idx → EReal) (We2 : S64x64.Idx → EReal) (be2 : S64.Idx → EReal)
    (Wc1 : S64x64.Idx → EReal) (bc1 : S64.Idx → EReal) (Wc2 : S64x1.Idx → EReal) (bc2 : S1.Idx → EReal)
    (hb : S64.ShapeCasts S1x64) (hb1 : S1.ShapeCasts S1x1) :
    IsTile r0 hr
      (k0_pay1 (F := Ideal)
        (k0_pay3 (F := Ideal) x0 We1 (shapeCast S1x64 be1 hb) We2 (shapeCast S1x64 be2 hb) Wc1 (shapeCast S1x64 bc1 hb) Wc2)
        (shapeCast S1x1 bc2 hb1) x1)
      (coordWhole Rel (cwWhole X We1 be1 We2 be2 Wc1 bc1 Wc2 bc2)) := by
  unfold k0_pay1 k0_pay3 coordWhole cwWhole
  simp only [shapeCast_self]
  exact vMul hrel (colRep _ (bidCol 800000 3)
    (dense_named _ rfl none _ bc2 hb1 _ (vTrunc .bf16 _ (siluDense_named _ rfl none _ bc1 hb _
      (vTrunc .bf16 _ (msg_isTile hx We1 be1 We2 be2 hb))))))

end Edge

section Node
variable {r0 : Nat} {hr : r0 + 2000 ≤ 50000}

/-- The node payload of a tile of Z is the tile of the whole node outputs. -/
theorem node_isTile {x0 : S2000x128.Idx → EReal} {Z : S50000x128.Idx → EReal} (hx : IsTile r0 hr x0 Z)
    (Wn1 : S128x64.Idx → EReal) (bn1 : S64.Idx → EReal) (Wn2 : S64x64.Idx → EReal) (bn2 : S64.Idx → EReal)
    (hb : S64.ShapeCasts S1x64) :
    IsTile r0 hr (k1_pay1 (F := Ideal) x0 Wn1 (shapeCast S1x64 bn1 hb) Wn2 (shapeCast S1x64 bn2 hb))
      (nodeWhole Z Wn1 bn1 Wn2 bn2) := by
  unfold k1_pay1 nodeWhole
  simp only [shapeCast_self]
  exact dense_named _ rfl none _ bn2 hb _ (vTrunc .bf16 _ (siluDense_named _ rfl none _ bn1 hb _ (vTrunc .bf16 _ hx)))

end Node

end Cert.KernelIdeal.Layer

end
-- ==== Proof.KernelValue.lean ====
/-
  The kernel program's two results as functions of its arguments, on the extended reals.

  After the first host stretch the edge kernel finds the edge features X (800000 × 129), the relative positions rel
  (800000 × 3), the weights as launched and each bias viewed as a 1 × C row. Its tiles write back, block by block, the
  tiles of the whole-array edge messages and coordinate contributions, and the blocks cover the two result arrays: so
  they end holding  msg(X)  and  rel · cw(X).  The second host stretch scatter-adds both over the row index into
  zeros, adds the positions, and joins the node features with the aggregated messages into the node inputs Z
  (50000 × 128); the node kernel's result array ends holding the whole node function of Z in the same way.
-/
import proofs.«179086_j12515534701202_1_alg».proof.Proof.Blocks
import proofs.«179086_j12515534701202_1_alg».proof.Proof.EdgeTile
import proofs.«179086_j12515534701202_1_alg».proof.Proof.Run
import Idealize.ShloMosaic.Lib.StableHlo.Run

set_option maxRecDepth 16384

noncomputable section

namespace Cert.KernelIdeal.Layer

open Idealize.ShloMosaic Idealize.ShloMosaic.TcCoe Idealize.ShloMosaic.ValueIdx Idealize.SL.Sem Idealize.ShloMosaic.StableHlo
open Cert.Tile Cert.KernelIdeal Cert.KernelIdeal.Gen

variable (m : (ℓ : Loc nD τ sig) → Buf (Elt Ideal) ℓ) (c : Dev nD)

/-! ## What the edge kernel finds -/

/-- A buffer the first host stretch does not write is as launched. -/
theorem W1_kept (b : Ref sig .tc) (h : b ∉ wrote0) : W1 m c (Proc.devRef .tc b) = m ((c : Thread nD τ).loc b) :=
  (StableHlo.after_of_writes_sub hostOps0 _ hostOps0_writes h).trans rfl

/-- Each bias reaches the edge kernel viewed as a 1 × C row. -/
theorem W1_v37 : W1 m c (Proc.devRef .tc main_v37) = shapeCast S1x64 (m ((c : Thread nD τ).loc main_arg4)) shapeCasts_S64_S1x64 := by
  show StableHlo.after hostOps0 (W0 m c) (Proc.devRef .tc main_v37) = _
  after_results_simp
  rfl
theorem W1_v38 : W1 m c (Proc.devRef .tc main_v38) = shapeCast S1x64 (m ((c : Thread nD τ).loc main_arg6)) shapeCasts_S64_S1x64 := by
  show StableHlo.after hostOps0 (W0 m c) (Proc.devRef .tc main_v38) = _
  after_results_simp
  rfl
theorem W1_v39 : W1 m c (Proc.devRef .tc main_v39) = shapeCast S1x64 (m ((c : Thread nD τ).loc main_arg8)) shapeCasts_S64_S1x64 := by
  show StableHlo.after hostOps0 (W0 m c) (Proc.devRef .tc main_v39) = _
  after_results_simp
  rfl
theorem W1_v40 : W1 m c (Proc.devRef .tc main_v40) = shapeCast S1x1 (m ((c : Thread nD τ).loc main_arg10)) shapeCasts_S1_S1x1 := by
  show StableHlo.after hostOps0 (W0 m c) (Proc.devRef .tc main_v40) = _
  after_results_simp
  rfl

/-- The edge features, the relative positions and the row index as the first host stretch leaves them. -/
abbrev feat : S800000x129.Idx → EReal := W1 m c (Proc.devRef .tc main_v36)
abbrev relPos : S800000x3.Idx → EReal := W1 m c (Proc.devRef .tc main_v32)
abbrev rowIdx : S800000.Idx → Elt Ideal .i32 := W1 m c (Proc.devRef .tc main_v1)

/-- Tile `t` of the edge kernel reads rows [8000·t, 8000·t + 8000) of the edge features and of the relative positions. -/
theorem feat_tile (t : Fin cfg0.N) :
    IsTile (8000 * t.val) (by have := tlt0 t; omega) (blk0 (V1 m) c 0 t) (feat m c) :=
  fun p l => blk0_0_apply (V1 m) c t p l
theorem rel_tile (t : Fin cfg0.N) :
    IsTile (8000 * t.val) (by have := tlt0 t; omega) (blk0 (V1 m) c 1 t) (relPos m c) :=
  fun p l => blk0_1_apply (V1 m) c t p l

/-! ## What the edge kernel leaves -/

/-- The edge-message array ends holding the whole-array edge messages of the edge features. -/
theorem msg_arr : W2 m c (Proc.devRef .tc main_v41_0)
    = msgWhole (feat m c) (m ((c : Thread nD τ).loc main_arg3)) (m ((c : Thread nD τ).loc main_arg4)) (m ((c : Thread nD τ).loc main_arg5)) (m ((c : Thread nD τ).loc main_arg6)) := by
  refine (W2_arr m c 10).trans (arr0_10 (V1 m) c _ fun t p l => ?_)
  rw [msgTile_eq, blk0_2_eq, blk0_3_eq, blk0_4_eq, blk0_5_eq]
  show k0_pay2 (F := Ideal) (blk0 (V1 m) c 0 t) (W1 m c (Proc.devRef .tc main_arg3)) (W1 m c (Proc.devRef .tc main_v37))
      (W1 m c (Proc.devRef .tc main_arg5)) (W1 m c (Proc.devRef .tc main_v38)) (ix2 p l) = _
  rw [W1_kept m c main_arg3 (by decide), W1_v37, W1_kept m c main_arg5 (by decide), W1_v38]
  exact msg_isTile (feat_tile m c t) _ _ _ _ _ p l

/-- The coordinate-contribution array ends holding the relative positions scaled by the whole-array coordinate weight. -/
theorem coord_arr : W2 m c (Proc.devRef .tc main_v41_1)
    = coordWhole (relPos m c) (cwWhole (feat m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W2_arr m c 11).trans (arr0_11 (V1 m) c _ fun t p l => ?_)
  rw [coordTile_eq, blk0_2_eq, blk0_3_eq, blk0_4_eq, blk0_5_eq, blk0_6_eq, blk0_7_eq, blk0_8_eq, blk0_9_eq]
  show k0_pay1 (F := Ideal) (k0_pay3 (F := Ideal) (blk0 (V1 m) c 0 t) (W1 m c (Proc.devRef .tc main_arg3)) (W1 m c (Proc.devRef .tc main_v37))
      (W1 m c (Proc.devRef .tc main_arg5)) (W1 m c (Proc.devRef .tc main_v38)) (W1 m c (Proc.devRef .tc main_arg7))
      (W1 m c (Proc.devRef .tc main_v39)) (W1 m c (Proc.devRef .tc main_arg9))) (W1 m c (Proc.devRef .tc main_v40))
      (blk0 (V1 m) c 1 t) (ix2 p l) = _
  rw [W1_kept m c main_arg3 (by decide), W1_v37, W1_kept m c main_arg5 (by decide), W1_v38,
    W1_kept m c main_arg7 (by decide), W1_v39, W1_kept m c main_arg9 (by decide), W1_v40]
  exact coord_isTile (feat_tile m c t) (rel_tile m c t) _ _ _ _ _ _ _ _ _ _ p l

/-! ## The second host stretch -/

/-- A buffer neither the first stretch nor the edge kernel's results touch is as launched when the second stretch starts. -/
theorem W2_kept (b : Ref sig .tc) (h : b ∉ wrote0) (h2 : ∀ w, Pipeline.arrRef spec0 w ≠ b) :
    W2 m c (Proc.devRef .tc b) = m ((c : Thread nD τ).loc b) :=
  (W2_of_ne m c b h2).trans (W1_kept m c b h)

/-- The position output: the positions plus the coordinate contributions scatter-added over the row index. -/
theorem pos_out : W4 m c (Proc.devRef .tc main_v45)
    = addf (F := Ideal) (φ := .f32) (m ((c : Thread nD τ).loc main_arg1))
        (Host.scatterAdd scatter_S50000x3_S800000x1_S800000x3_1_0_0_1
          (broadcastInDim S50000x3 ![] bcast_S_S50000x3 (constant (F := Ideal) S_ .f32 0x00000000#32))
          (broadcastInDim S800000x1 ![0] bcast_S800000_S800000x1_0 (rowIdx m c))
          (coordWhole (relPos m c) (cwWhole (feat m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))) := by
  refine (W4_of_ne m c main_v45 (by decide)).trans ?_
  show StableHlo.after hostOps1 (W2 m c) (Proc.devRef .tc main_v45) = _
  after_results_simp
  rw [W2_kept m c main_arg1 (by decide) (by decide), W2_of_ne m c main_v1 (by decide), coord_arr]

/-- The node inputs: the node features joined with the edge messages scatter-added over the row index. -/
theorem node_in : W3 m c (Proc.devRef .tc main_v49)
    = concatenate S50000x128 1
        [⟨S50000x64, (m ((c : Thread nD τ).loc main_arg0))⟩,
         ⟨S50000x64, Host.scatterAdd scatter_S50000x64_S800000x1_S800000x64_1_0_0_1
            (broadcastInDim S50000x64 ![] bcast_S_S50000x64 (constant (F := Ideal) S_ .f32 0x00000000#32))
            (broadcastInDim S800000x1 ![0] bcast_S800000_S800000x1_0 (rowIdx m c))
            (msgWhole (feat m c) (m ((c : Thread nD τ).loc main_arg3)) (m ((c : Thread nD τ).loc main_arg4)) (m ((c : Thread nD τ).loc main_arg5)) (m ((c : Thread nD τ).loc main_arg6)))⟩]
        concatenates_S50000x64_S50000x64_S50000x128_d1 := by
  show StableHlo.after hostOps1 (W2 m c) (Proc.devRef .tc main_v49) = _
  after_results
  rw [W2_kept m c main_arg0 (by decide) (by decide), W2_of_ne m c main_v1 (by decide), msg_arr]

/-- A buffer no host stretch writes and the edge kernel's results do not touch is as launched when the node kernel starts. -/
theorem W3_kept (b : Ref sig .tc) (h3 : b ∉ wrote1) (h : b ∉ wrote0) (h2 : ∀ w, Pipeline.arrRef spec0 w ≠ b) :
    W3 m c (Proc.devRef .tc b) = m ((c : Thread nD τ).loc b) :=
  (StableHlo.after_of_writes_sub hostOps1 _ hostOps1_writes h3).trans (W2_kept m c b h h2)

theorem W3_v50 : W3 m c (Proc.devRef .tc main_v50) = shapeCast S1x64 (m ((c : Thread nD τ).loc main_arg12)) shapeCasts_S64_S1x64 := by
  show StableHlo.after hostOps1 (W2 m c) (Proc.devRef .tc main_v50) = _
  after_results_simp
  rw [W2_kept m c main_arg12 (by decide) (by decide)]
  rfl
theorem W3_v51 : W3 m c (Proc.devRef .tc main_v51) = shapeCast S1x64 (m ((c : Thread nD τ).loc main_arg14)) shapeCasts_S64_S1x64 := by
  show StableHlo.after hostOps1 (W2 m c) (Proc.devRef .tc main_v51) = _
  after_results_simp
  rw [W2_kept m c main_arg14 (by decide) (by decide)]
  rfl

/-! ## What the node kernel leaves -/

/-- Tile `t` of the node kernel reads rows [2000·t, 2000·t + 2000) of the node inputs. -/
theorem nodeIn_tile (t : Fin cfg1.N) :
    IsTile (2000 * t.val) (by have := tlt1 t; omega) (blk1 (V3 m) c 0 t) (W3 m c (Proc.devRef .tc main_v49)) :=
  fun p l => blk1_0_apply (V3 m) c t p l

/-- The node output: the whole-array node function of the node inputs. -/
theorem h_out : W4 m c (Proc.devRef .tc main_v52)
    = nodeWhole (W3 m c (Proc.devRef .tc main_v49)) (m ((c : Thread nD τ).loc main_arg11)) (m ((c : Thread nD τ).loc main_arg12)) (m ((c : Thread nD τ).loc main_arg13)) (m ((c : Thread nD τ).loc main_arg14)) := by
  refine (W4_arr m c 5).trans (arr1_5 (V3 m) c _ fun t p l => ?_)
  rw [nodeTile_eq, blk1_1_eq, blk1_2_eq, blk1_3_eq, blk1_4_eq]
  show k1_pay1 (F := Ideal) (blk1 (V3 m) c 0 t) (W3 m c (Proc.devRef .tc main_arg11)) (W3 m c (Proc.devRef .tc main_v50))
      (W3 m c (Proc.devRef .tc main_arg13)) (W3 m c (Proc.devRef .tc main_v51)) (ix2 p l) = _
  rw [W3_kept m c main_arg11 (by decide) (by decide) (by decide), W3_v50, W3_kept m c main_arg13 (by decide) (by decide) (by decide), W3_v51]
  exact node_isTile (nodeIn_tile m c t) _ _ _ _ _ p l

end Cert.KernelIdeal.Layer

end
-- ==== Proof.EntryValue.lean ====
/-
  What the first host stretch hands the edge kernel, in terms of the launch memory.

  Before the edge kernel runs, host operations split the edge list into its two rows (every edge's source node and
  target node), bring indices counted from the end into range, gather the two endpoints' features and positions,
  take the difference of the positions and its squared length, and lay the two feature blocks and the squared length
  side by side as the edge features of 129 columns.

  This module names those values as terms of the launch memory and shows that three of the buffers the stretch
  leaves hold them: the source nodes, the relative positions, and the edge features. The stretch is a long line of
  operations and the last value is a concatenation of three operands, so it is read in two steps: whatever the
  buffers hold before them, the last five operations leave the three operands' contents side by side; and each of
  the three operands is read off the first forty-five operations directly.
-/
import proofs.«179086_j12515534701202_1_alg».proof.Proof.Run
import Idealize.ShloMosaic.Lib.StableHlo.Run
import Idealize.ShloMosaic.PureOps.Ideal

set_option maxRecDepth 16384

noncomputable section

namespace Cert.KernelIdeal.Layer

open Idealize.ShloMosaic Idealize.ShloMosaic.TcCoe
open Cert.KernelIdeal Cert.KernelIdeal.Gen

/-! ## Two facts about lines of host operations -/

section Three
variable {τ' : Topo} {sig' : RefSig} {Val : EltTy → Type} {x a b y : Ref sig' .tc}

/-- An operation over a literal family of three operands leaves in its result buffer its function of the three
    operands' contents, each read at its own reference. -/
theorem nary3_result
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, in the form a single rewriting pass over a long line of operations can use. -/
theorem nary3_result'
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end Three

section Split
variable {τ' : Topo} {sig' : RefSig} {Val : EltTy → Type}

/-- Running a line of operations is running its first `n`, then the rest from what those leave. -/
theorem after_split (n : Nat) : ∀ (ops : List (HloOp τ' sig' Val)) (V : Valuation τ' sig' Val),
    StableHlo.after ops V = StableHlo.after (ops.drop n) (StableHlo.after (ops.take n) V) := by
  induction n with
  | zero => intro ops V; rfl
  | succ k ih =>
    intro ops V
    cases ops with
    | nil => rfl
    | cons op ops => exact ih ops _
end Split

/-! ## The values, as terms of the launch memory -/

variable (m : (ℓ : Loc nD τ sig) → Buf (Elt Ideal) ℓ) (c : Dev nD)

/-- The source node of every edge: the first row of the edge list. -/
abbrev rows : S800000.Idx → Elt Ideal .i32 :=
  shapeCast S800000 (extractStridedSlice S1x800000 ![0, 0] (m ((c : Thread nD τ).loc main_arg2)) slices_S2x800000_S1x800000_0_0) shapeCasts_S1x800000_S800000
/-- The target node of every edge: its second row. -/
abbrev cols : S800000.Idx → Elt Ideal .i32 :=
  shapeCast S800000 (extractStridedSlice S1x800000 ![1, 0] (m ((c : Thread nD τ).loc main_arg2)) slices_S2x800000_S1x800000_1_0) shapeCasts_S1x800000_S800000
/-- A node index counted from the end (negative) is brought into range by adding the number of nodes. -/
abbrev wrap (i : S800000.Idx → Elt Ideal .i32) : S800000.Idx → Elt Ideal .i32 :=
  select (cmpi .slt i (broadcastInDim S800000 ![] bcast_S_S800000 (constantI S_ 32 0#32)))
    (addi i (broadcastInDim S800000 ![] bcast_S_S800000 (constantI S_ 32 50000#32))) i
/-- The wrapped indices as one column, the form a gather takes them in. -/
abbrev asColumn (i : S800000.Idx → Elt Ideal .i32) : S800000x1.Idx → Elt Ideal .i32 :=
  broadcastInDim S800000x1 ![0] bcast_S800000_S800000x1_0 (wrap i)
/-- The relative position of every edge: its source's position less its target's. -/
abbrev rel : FVec Ideal S800000x3 .f32 :=
  subf (Host.gather gather_S50000x3_S800000x1_S800000x3_1_0_n_n_0_1_13 (m ((c : Thread nD τ).loc main_arg1)) (asColumn (rows m c)))
    (Host.gather gather_S50000x3_S800000x1_S800000x3_1_0_n_n_0_1_13 (m ((c : Thread nD τ).loc main_arg1)) (asColumn (cols m c)))

/-! ## What the stretch leaves -/

-- a comparison of two spellings of one host term must never open a whole-array operation
attribute [local irreducible] Host.gather Host.reduceAdd concatenate broadcastInDim extractStridedSlice shapeCast select cmpi addi constantI constant

set_option maxHeartbeats 1000000 in
/-- After the first host stretch the buffer of source nodes holds the edge list's first row. -/
theorem rows_eq : W1 m c (Proc.devRef .tc main_v1) = rows m c := by
  show StableHlo.after hostOps0 (W0 m c) (Proc.devRef .tc main_v1) = _
  simp (disch := decide) only [StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

set_option maxHeartbeats 1000000 in
/-- After the first host stretch the buffer of relative positions holds, edge by edge, the source's position less
    the target's. -/
theorem rel_eq : W1 m c (Proc.devRef .tc main_v32) = rel m c := by
  show StableHlo.after hostOps0 (W0 m c) (Proc.devRef .tc main_v32) = _
  simp (disch := decide) only [StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

set_option maxHeartbeats 1000000 in
/-- Whatever the buffers hold before them, the last five operations of the stretch leave in the buffer of edge
    features the three operands' contents side by side: the four after the concatenation only reshape biases. -/
theorem last_five (G : Valuation τ sig (Elt Ideal)) :
    StableHlo.after (List.drop 45 hostOps0) G (Proc.devRef .tc main_v36)
      = concatenate S800000x129 1
          [⟨S800000x64, G (Proc.devRef .tc main_v10)⟩, ⟨S800000x64, G (Proc.devRef .tc main_v17)⟩, ⟨S800000x1, G (Proc.devRef .tc main_v35)⟩]
          concatenates_S800000x64_S800000x64_S800000x1_S800000x129_d1 := by
  simp (disch := decide) only [List.drop_succ_cons, List.drop_zero, StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

set_option maxHeartbeats 1000000 in
/-- The first forty-five operations leave the sources' features, -/
theorem first45_v10 : StableHlo.after (List.take 45 hostOps0) (W0 m c) (Proc.devRef .tc main_v10) = Host.gather gather_S50000x64_S800000x1_S800000x64_1_0_n_n_0_1_164 (m ((c : Thread nD τ).loc main_arg0)) (asColumn (rows m c)) := by
  simp (disch := decide) only [List.take_succ_cons, List.take_zero, StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

set_option maxHeartbeats 1000000 in
/-- the targets' features, -/
theorem first45_v17 : StableHlo.after (List.take 45 hostOps0) (W0 m c) (Proc.devRef .tc main_v17) = Host.gather gather_S50000x64_S800000x1_S800000x64_1_0_n_n_0_1_164 (m ((c : Thread nD τ).loc main_arg0)) (asColumn (cols m c)) := by
  simp (disch := decide) only [List.take_succ_cons, List.take_zero, StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

set_option maxHeartbeats 1000000 in
/-- and the squared length of the relative position, as one column. -/
theorem first45_v35 : StableHlo.after (List.take 45 hostOps0) (W0 m c) (Proc.devRef .tc main_v35)
    = broadcastInDim S800000x1 ![0] bcast_S800000_S800000x1_0
      (Host.reduceAdd (mulf (rel m c) (rel m c)) (constant S_ .f32 0x00000000#32) reducesTo_S800000x3_S800000_d1 h_S_) := by
  simp (disch := decide) only [List.take_succ_cons, List.take_zero, StableHlo.after_cons, StableHlo.after_nil,
    StableHlo.nullary_result', StableHlo.unary_result', StableHlo.binary_result', StableHlo.ternary_result', StableHlo.reshape_result',
    nary3_result',
    StableHlo.nullary_result_ne', StableHlo.unary_result_ne', StableHlo.binary_result_ne', StableHlo.ternary_result_ne',
    StableHlo.reshape_result_ne', StableHlo.nary_result_ne']
  rfl

/-- After the first host stretch the buffer of edge features holds, side by side, the source's features, the
    target's features and the squared length of the relative position. -/
theorem feat_eq : W1 m c (Proc.devRef .tc main_v36)
    = concatenate S800000x129 1
        [⟨S800000x64, Host.gather gather_S50000x64_S800000x1_S800000x64_1_0_n_n_0_1_164 (m ((c : Thread nD τ).loc main_arg0)) (asColumn (rows m c))⟩,
         ⟨S800000x64, Host.gather gather_S50000x64_S800000x1_S800000x64_1_0_n_n_0_1_164 (m ((c : Thread nD τ).loc main_arg0)) (asColumn (cols m c))⟩,
         ⟨S800000x1, broadcastInDim S800000x1 ![0] bcast_S800000_S800000x1_0
      (Host.reduceAdd (mulf (rel m c) (rel m c)) (constant S_ .f32 0x00000000#32) reducesTo_S800000x3_S800000_d1 h_S_)⟩]
        concatenates_S800000x64_S800000x64_S800000x1_S800000x129_d1 := by
  show StableHlo.after hostOps0 (W0 m c) (Proc.devRef .tc main_v36) = _
  rw [after_split 45 hostOps0 (W0 m c), last_five, first45_v10, first45_v17, first45_v35]

end Cert.KernelIdeal.Layer

end
-- ==== Proof.RefRead.lean ====
/-
  The reference's run, read one operation at a time (the generated run and its read-at-an-index lemmas are
  imported here so that later modules can cite them).
-/
import proofs.«179086_j12515534701202_1_alg».proof.Proof.Gen.ReferenceIdeal.Read
-- ==== Proof.RefValue.lean ====
/-
  The reference's stages are the whole-array layer functions.

  The reference computes, on whole arrays and in the host's operations: the edge features X (two gathers of node
  features and the squared distance of a gathered position pair, joined along the columns); two silu layers giving
  the edge messages; one more silu layer and a 64 → 1 layer giving the coordinate weight, which scales the relative
  positions row by row; two scatter-adds over the row index; and the node update, a silu layer and a linear layer on
  the node features joined with the aggregated messages. Each silu is spelt out as  z · (1 / (1 + e^(−z))).  Stage by
  stage these are the host-spelt dense and silu layers the kernels' tiles were shown to be tiles of — the same
  operations with the same dimension records, so each step is an unfolding.
-/
import proofs.«179086_j12515534701202_1_alg».proof.Proof.RefRead
import proofs.«179086_j12515534701202_1_alg».proof.Proof.EdgeTile

noncomputable section

namespace Cert.RefValue

open Idealize.ShloMosaic Idealize.ShloMosaic.TcCoe Cert.Tile
open Cert.KernelIdeal.Layer (msgWhole cwWhole coordWhole nodeWhole)

variable (x0 : (⟨Cert.ReferenceIdeal.S50000x64, .f32⟩ : BufTy).Contents (Elt Ideal)) (x1 : (⟨Cert.ReferenceIdeal.S50000x3, .f32⟩ : BufTy).Contents (Elt Ideal)) (x2 : (⟨Cert.ReferenceIdeal.S2x800000, .i32⟩ : BufTy).Contents (Elt Ideal))
  (x3 : (⟨Cert.ReferenceIdeal.S129x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal))
  (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x1, .f32⟩ : BufTy).Contents (Elt Ideal)) (x10 : (⟨Cert.ReferenceIdeal.S1, .f32⟩ : BufTy).Contents (Elt Ideal))
  (x11 : (⟨Cert.ReferenceIdeal.S128x64, .f32⟩ : BufTy).Contents (Elt Ideal)) (x12 : (⟨Cert.ReferenceIdeal.S64, .f32⟩ : BufTy).Contents (Elt Ideal)) (x13 : (⟨Cert.ReferenceIdeal.S64x64, .f32⟩ : BufTy).Contents (Elt Ideal)) (x14 : (⟨Cert.ReferenceIdeal.S64, .f32⟩ : BufTy).Contents (Elt Ideal))

/-! ## Layer by layer -/

theorem layer1 : Cert.ReferenceIdeal.Read.val_main_v41 (F := Ideal) x0 x1 x2 x3 x4 = hostSilu 800000 64 (hostDense 800000 129 64 (Cert.ReferenceIdeal.Read.val_main_v36 (F := Ideal) x0 x1 x2) x3 x4) := rfl
theorem layer2 : Cert.ReferenceIdeal.Read.val_main_v46 (F := Ideal) x0 x1 x2 x3 x4 x5 x6 = hostSilu 800000 64 (hostDense 800000 64 64 (Cert.ReferenceIdeal.Read.val_main_v41 (F := Ideal) x0 x1 x2 x3 x4) x5 x6) := rfl
theorem layer3 : Cert.ReferenceIdeal.Read.val_main_v51 (F := Ideal) x0 x1 x2 x3 x4 x5 x6 x7 x8 = hostSilu 800000 64 (hostDense 800000 64 64 (Cert.ReferenceIdeal.Read.val_main_v46 (F := Ideal) x0 x1 x2 x3 x4 x5 x6) x7 x8) := rfl
theorem layer4 : Cert.ReferenceIdeal.Read.val_main_v55 (F := Ideal) x0 x1 x2 x3 x4 x5 x6 x7 x8 x9 x10 = hostDense 800000 64 1 (Cert.ReferenceIdeal.Read.val_main_v51 (F := Ideal) x0 x1 x2 x3 x4 x5 x6 x7 x8) x9 x10 := rfl
theorem scale : Cert.ReferenceIdeal.Read.val_main_v57 (F := Ideal) x0 x1 x2 x3 x4 x5 x6 x7 x8 x9 x10 = coordWhole (Cert.ReferenceIdeal.Read.val_main_v18 (F := Ideal) x1 x2) (Cert.ReferenceIdeal.Read.val_main_v55 (F := Ideal) x0 x1 x2 x3 x4 x5 x6 x7 x8 x9 x10) := rfl
theorem layer5 : Cert.ReferenceIdeal.Read.val_main_v70 (F := Ideal) x0 x1 x2 x3 x4 x5 x6 x11 x12 = hostSilu 50000 64 (hostDense 50000 128 64 (Cert.ReferenceIdeal.Read.val_main_v65 (F := Ideal) x0 x1 x2 x3 x4 x5 x6) x11 x12) := rfl
theorem layer6 : Cert.ReferenceIdeal.Read.val_main_v74 (F := Ideal) x0 x1 x2 x3 x4 x5 x6 x11 x12 x13 x14 = hostDense 50000 64 64 (Cert.ReferenceIdeal.Read.val_main_v70 (F := Ideal) x0 x1 x2 x3 x4 x5 x6 x11 x12) x13 x14 := rfl

/-! ## Composed -/

/-- The reference's edge messages are the whole-array edge messages of its edge features. -/
theorem msg_ref : Cert.ReferenceIdeal.Read.val_main_v46 (F := Ideal) x0 x1 x2 x3 x4 x5 x6 = msgWhole (Cert.ReferenceIdeal.Read.val_main_v36 (F := Ideal) x0 x1 x2) x3 x4 x5 x6 := by
  rw [layer2, layer1]; rfl

/-- Its coordinate weight, and its coordinate contributions. -/
theorem cw_ref : Cert.ReferenceIdeal.Read.val_main_v55 (F := Ideal) x0 x1 x2 x3 x4 x5 x6 x7 x8 x9 x10 = cwWhole (Cert.ReferenceIdeal.Read.val_main_v36 (F := Ideal) x0 x1 x2) x3 x4 x5 x6 x7 x8 x9 x10 := by
  rw [layer4, layer3, msg_ref]; rfl
theorem coord_ref : Cert.ReferenceIdeal.Read.val_main_v57 (F := Ideal) x0 x1 x2 x3 x4 x5 x6 x7 x8 x9 x10
    = coordWhole (Cert.ReferenceIdeal.Read.val_main_v18 (F := Ideal) x1 x2) (cwWhole (Cert.ReferenceIdeal.Read.val_main_v36 (F := Ideal) x0 x1 x2) x3 x4 x5 x6 x7 x8 x9 x10) := by
  rw [scale, cw_ref]

/-- Its node outputs are the whole-array node function of its node inputs. -/
theorem node_ref : Cert.ReferenceIdeal.Read.val_main_v74 (F := Ideal) x0 x1 x2 x3 x4 x5 x6 x11 x12 x13 x14 = nodeWhole (Cert.ReferenceIdeal.Read.val_main_v65 (F := Ideal) x0 x1 x2 x3 x4 x5 x6) x11 x12 x13 x14 := by
  rw [layer6, layer5]; rfl

/-! ## The two results in closed form -/

/-- The position result: positions plus the coordinate contributions scatter-added over the row index. -/
theorem pos_ref : Cert.ReferenceIdeal.Read.val_main_v61 (F := Ideal) x0 x1 x2 x3 x4 x5 x6 x7 x8 x9 x10
    = addf (F := Ideal) (φ := .f32) x1
        (Host.scatterAdd Cert.KernelIdeal.scatter_S50000x3_S800000x1_S800000x3_1_0_0_1
          (broadcastInDim Cert.KernelIdeal.S50000x3 ![] Cert.KernelIdeal.Facts₀.bcast_S_S50000x3 (constant (F := Ideal) Cert.KernelIdeal.S_ .f32 0x00000000#32))
          (broadcastInDim Cert.KernelIdeal.S800000x1 ![0] Cert.KernelIdeal.Facts₀.bcast_S800000_S800000x1_0 (Cert.ReferenceIdeal.Read.val_main_v1 (F := Ideal) x2))
          (coordWhole (Cert.ReferenceIdeal.Read.val_main_v18 (F := Ideal) x1 x2) (cwWhole (Cert.ReferenceIdeal.Read.val_main_v36 (F := Ideal) x0 x1 x2) x3 x4 x5 x6 x7 x8 x9 x10))) := by
  rw [← coord_ref]; rfl

/-- The node inputs: node features joined with the edge messages scatter-added over the row index. -/
theorem nodeIn_ref : Cert.ReferenceIdeal.Read.val_main_v65 (F := Ideal) x0 x1 x2 x3 x4 x5 x6
    = concatenate Cert.KernelIdeal.S50000x128 1
        [⟨Cert.KernelIdeal.S50000x64, x0⟩,
         ⟨Cert.KernelIdeal.S50000x64, Host.scatterAdd Cert.KernelIdeal.scatter_S50000x64_S800000x1_S800000x64_1_0_0_1
            (broadcastInDim Cert.KernelIdeal.S50000x64 ![] Cert.KernelIdeal.Facts₀.bcast_S_S50000x64 (constant (F := Ideal) Cert.KernelIdeal.S_ .f32 0x00000000#32))
            (broadcastInDim Cert.KernelIdeal.S800000x1 ![0] Cert.KernelIdeal.Facts₀.bcast_S800000_S800000x1_0 (Cert.ReferenceIdeal.Read.val_main_v1 (F := Ideal) x2))
            (msgWhole (Cert.ReferenceIdeal.Read.val_main_v36 (F := Ideal) x0 x1 x2) x3 x4 x5 x6)⟩]
        Cert.KernelIdeal.Facts₀.concatenates_S50000x64_S50000x64_S50000x128_d1 := by
  rw [← msg_ref]; rfl

end Cert.RefValue

end
-- ==== Proof.Joint.lean ====
/-
  The two programs compute the same two arrays.

  The first host stretch of the kernel program is, operation for operation, the reference's own opening: the row and
  column indices sliced out of the edge index, the wrap of negative indices, the four row gathers, the relative
  positions, their squared length, and the edge features joined along the columns. From there the kernel program's
  results were shown to be the whole-array layer functions of those values, and the reference's stages are the same
  functions. So at the same argument arrays the node result and the position result agree, entry by entry, on the
  extended reals; no algebraic law is used, only that a row-tiled layer is the whole layer restricted to the rows.
-/
import proofs.«179086_j12515534701202_1_alg».proof.Proof.KernelValue
import proofs.«179086_j12515534701202_1_alg».proof.Proof.EntryValue
import proofs.«179086_j12515534701202_1_alg».proof.Proof.RefValue

noncomputable section

namespace Cert.KernelIdeal.Layer

open Idealize.ShloMosaic Idealize.ShloMosaic.TcCoe Idealize.SL.Sem
open Cert.KernelIdeal Cert.KernelIdeal.Gen

variable (m : (ℓ : Loc nD τ sig) → Buf (Elt Ideal) ℓ) (c : Dev nD)

/-- What the first host stretch leaves is what the reference's opening computes from the same arguments. -/
theorem rows_ref : rowIdx m c = Cert.ReferenceIdeal.Read.val_main_v1 (F := Ideal) (m ((c : Thread nD τ).loc main_arg2)) := (rows_eq m c).trans rfl
theorem rel_ref : relPos m c = Cert.ReferenceIdeal.Read.val_main_v18 (F := Ideal) (m ((c : Thread nD τ).loc main_arg1)) (m ((c : Thread nD τ).loc main_arg2)) := (rel_eq m c).trans rfl
theorem feat_ref : feat m c = Cert.ReferenceIdeal.Read.val_main_v36 (F := Ideal) (m ((c : Thread nD τ).loc main_arg0)) (m ((c : Thread nD τ).loc main_arg1)) (m ((c : Thread nD τ).loc main_arg2)) := (feat_eq m c).trans rfl

/-- The node result of the kernel program is the reference's, at the same arguments. -/
theorem h_joint : W4 m c (Proc.devRef .tc main_v52)
    = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) := by
  rw [h_out, node_in, feat_ref, rows_ref, Cert.RefValue.node_ref, Cert.RefValue.nodeIn_ref]

/-- The position result of the kernel program is the reference's, at the same arguments. -/
theorem pos_joint : W4 m c (Proc.devRef .tc main_v45)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [pos_out, feat_ref, rel_ref, rows_ref, Cert.RefValue.pos_ref]

end Cert.KernelIdeal.Layer

end
-- ==== Proof.lean ====
/-
  The certificate of one message-passing layer (an E(n)-equivariant graph convolution): node features h (50000 × 64),
  positions (50000 × 3), 800000 edges.

  The kernel program gathers the end points' features and positions per edge on the host, runs the two edge
  networks (messages; a coordinate weight scaling the relative positions) in a kernel tiled over the edges, aggregates
  both over the row index with scatter-adds on the host, and runs the node network in a second kernel tiled over the
  nodes. The reference computes the same layer with whole-array operations.

  Frames. Either kernel's tiles load whole staging buffers, compute, and store whole output buffers; the program's
  run is the chain host stretch, edge kernel, host stretch, node kernel, and no step writes an argument array. The
  reference's frame is its run with the results dropped.
  The idealization rewrote nothing, so there is nothing to preserve beyond the program's own text.
  Values. On the extended reals each product contracts over columns, each bias is a row repeated down the rows and
  silu acts entry by entry (the kernel's  z · logistic z  and the reference's  z · (1 / (1 + e^(−z)))  are one
  function), so a tile of a layer's output is that layer applied to the tile of its input, and the result blocks
  cover the result arrays: the kernels leave the whole-array layer functions, which are the reference's stages.
-/
import proofs.«179086_j12515534701202_1_alg».proof.Defs
import proofs.«179086_j12515534701202_1_alg».proof.Proof.Gen.Kernel
import proofs.«179086_j12515534701202_1_alg».proof.Proof.Gen.KernelIdeal
import proofs.«179086_j12515534701202_1_alg».proof.Proof.Gen.ReferenceIdeal
import proofs.«179086_j12515534701202_1_alg».proof.Proof.Gen.Pre_finite_inputs
import proofs.«179086_j12515534701202_1_alg».proof.Proof.Run
import proofs.«179086_j12515534701202_1_alg».proof.Proof.RunK
import proofs.«179086_j12515534701202_1_alg».proof.Proof.Joint
import Idealize.ShloMosaic.Adequacy
import Idealize.ShloMosaic.Init

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

theorem frame_k : Cert.frame_Kernel := fun m g _ => Cert.Kernel.Layer.frame m g

theorem frame_ki : Cert.frame_KernelIdeal := fun m g _ => Cert.KernelIdeal.Layer.frame m g

/-- The reference's run names its two results and keeps its arguments; the frame is the second half. -/
theorem frame_ri : Cert.frame_ReferenceIdeal := fun m g _ =>
  (θ_run Cert.ReferenceIdeal.defs _ _).mono (fun _ h c => (h c).2.2) (Cert.ReferenceIdeal.Value.run (F := Ideal) m g)

theorem preserves : Cert.preserves_Kernel_KernelIdeal := trivial

/-- Both programs end, the kernel program with every buffer at its boundary contents and the reference with its
    results at its stages; at agreeing arguments the node results and the position results are the same arrays. -/
theorem algebraic : Cert.algebraic_KernelIdeal_ReferenceIdeal := by
  intro m g m' g' _ hagree
  refine ⟨fun c => Cert.KernelIdeal.Layer.W4 m c (Proc.devRef .tc Cert.KernelIdeal.main_v52),
    fun c => Cert.KernelIdeal.Layer.W4 m c (Proc.devRef .tc Cert.KernelIdeal.main_v45), ?_, ?_⟩
  · exact (θ_run Cert.KernelIdeal.defs _ _).mono (fun r h c =>
      ⟨h c _ (Cert.KernelIdeal.Layer.mem_uc Cert.KernelIdeal.main_v52 (by decide)),
      h c _ (Cert.KernelIdeal.Layer.mem_uc Cert.KernelIdeal.main_v45 (by decide)),
      (h c _ (Cert.KernelIdeal.Layer.mem_uc Cert.KernelIdeal.main_arg0 (by decide))).trans (Cert.KernelIdeal.Layer.W4_main_arg0 m c),
      (h c _ (Cert.KernelIdeal.Layer.mem_uc Cert.KernelIdeal.main_arg1 (by decide))).trans (Cert.KernelIdeal.Layer.W4_main_arg1 m c),
      (h c _ (Cert.KernelIdeal.Layer.mem_uc Cert.KernelIdeal.main_arg2 (by decide))).trans (Cert.KernelIdeal.Layer.W4_main_arg2 m c),
      (h c _ (Cert.KernelIdeal.Layer.mem_uc Cert.KernelIdeal.main_arg3 (by decide))).trans (Cert.KernelIdeal.Layer.W4_main_arg3 m c),
      (h c _ (Cert.KernelIdeal.Layer.mem_uc Cert.KernelIdeal.main_arg4 (by decide))).trans (Cert.KernelIdeal.Layer.W4_main_arg4 m c),
      (h c _ (Cert.KernelIdeal.Layer.mem_uc Cert.KernelIdeal.main_arg5 (by decide))).trans (Cert.KernelIdeal.Layer.W4_main_arg5 m c),
      (h c _ (Cert.KernelIdeal.Layer.mem_uc Cert.KernelIdeal.main_arg6 (by decide))).trans (Cert.KernelIdeal.Layer.W4_main_arg6 m c),
      (h c _ (Cert.KernelIdeal.Layer.mem_uc Cert.KernelIdeal.main_arg7 (by decide))).trans (Cert.KernelIdeal.Layer.W4_main_arg7 m c),
      (h c _ (Cert.KernelIdeal.Layer.mem_uc Cert.KernelIdeal.main_arg8 (by decide))).trans (Cert.KernelIdeal.Layer.W4_main_arg8 m c),
      (h c _ (Cert.KernelIdeal.Layer.mem_uc Cert.KernelIdeal.main_arg9 (by decide))).trans (Cert.KernelIdeal.Layer.W4_main_arg9 m c),
      (h c _ (Cert.KernelIdeal.Layer.mem_uc Cert.KernelIdeal.main_arg10 (by decide))).trans (Cert.KernelIdeal.Layer.W4_main_arg10 m c),
      (h c _ (Cert.KernelIdeal.Layer.mem_uc Cert.KernelIdeal.main_arg11 (by decide))).trans (Cert.KernelIdeal.Layer.W4_main_arg11 m c),
      (h c _ (Cert.KernelIdeal.Layer.mem_uc Cert.KernelIdeal.main_arg12 (by decide))).trans (Cert.KernelIdeal.Layer.W4_main_arg12 m c),
      (h c _ (Cert.KernelIdeal.Layer.mem_uc Cert.KernelIdeal.main_arg13 (by decide))).trans (Cert.KernelIdeal.Layer.W4_main_arg13 m c),
      (h c _ (Cert.KernelIdeal.Layer.mem_uc Cert.KernelIdeal.main_arg14 (by decide))).trans (Cert.KernelIdeal.Layer.W4_main_arg14 m c)⟩)
      (Cert.KernelIdeal.Layer.run_all m g)
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14⟩ := hagree c
    refine ⟨(h c).1.trans ?_, (h c).2.1.trans ?_, (h c).2.2⟩
    · rw [Cert.ReferenceIdeal.Read.val_main_v74_eq, e0, e1, e2, e3, e4, e5, e6, e11, e12, e13, e14]
      exact (Cert.KernelIdeal.Layer.h_joint m c).symm
    · rw [Cert.ReferenceIdeal.Read.val_main_v61_eq, e0, e1, e2, e3, e4, e5, e6, e7, e8, e9, e10]
      exact (Cert.KernelIdeal.Layer.pos_joint m c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
